-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg17 : FVec F S128x1 .f32) (main_arg18 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg17
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg18
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_v48 main_v49 main_v50

def fn_part1 {F : FTy → Type} [FloatOps F] (main_arg10 : FVec F S128x128 .f32) (main_arg11 : FVec F S128x128 .f32) (main_arg12 : FVec F S128x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg10
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg12
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg13 main_arg14 main_arg15 main_arg16 main_arg17 main_arg18 main_v33

def fn {F : FTy → Type} [FloatOps F] (main_arg0 : FVec F S100000x128 .f32) (main_arg1 : IVec S1600000 32) (main_arg2 : IVec S1600000 32) (main_arg3 : IVec S200000 32) (main_arg4 : IVec S200000 32) (main_arg5 : IVec S200000 32) (main_arg6 : IVec S200000 32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg8
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_arg16 main_arg17 main_arg18 main_v13 main_v16
-- ==== Kernel.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S400000 : Shape := ⟨1, ![400000]⟩
abbrev S400000x1 : Shape := ⟨2, ![400000, 1]⟩
abbrev S400000x128 : Shape := ⟨2, ![400000, 128]⟩
abbrev S1x128 : Shape := ⟨2, ![1, 128]⟩
abbrev S1x1 : Shape := ⟨2, ![1, 1]⟩
abbrev S8000x128 : Shape := ⟨2, ![8000, 128]⟩
abbrev S8000x1 : Shape := ⟨2, ![8000, 1]⟩
abbrev S200000x1 : Shape := ⟨2, ![200000, 1]⟩

abbrev nBuf : Space → Nat
  | .hbm => 94
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S200000, .i32⟩
  | .hbm, ⟨4, _⟩ => ⟨S200000, .i32⟩
  | .hbm, ⟨5, _⟩ => ⟨S200000, .i32⟩
  | .hbm, ⟨6, _⟩ => ⟨S200000, .i32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S100000x128, .f32⟩
  | .hbm, ⟨51, _⟩ => ⟨S100000x128, .bf16⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .bf16⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S100000x128, .bf16⟩
  | .hbm, ⟨68, _⟩ => ⟨S400000, .i32⟩
  | .hbm, ⟨69, _⟩ => ⟨S400000, .i32⟩
  | .hbm, ⟨70, _⟩ => ⟨S_, .i32⟩
  | .hbm, ⟨71, _⟩ => ⟨S400000, .i32⟩
  | .hbm, ⟨72, _⟩ => ⟨S400000, .i1⟩
  | .hbm, ⟨73, _⟩ => ⟨S_, .i32⟩
  | .hbm, ⟨74, _⟩ => ⟨S400000, .i32⟩
  | .hbm, ⟨75, _⟩ => ⟨S400000, .i32⟩
  | .hbm, ⟨76, _⟩ => ⟨S400000, .i32⟩
  | .hbm, ⟨77, _⟩ => ⟨S400000x1, .i32⟩
  | .hbm, ⟨78, _⟩ => ⟨S400000x128, .bf16⟩
  | .hbm, ⟨79, _⟩ => ⟨S_, .i32⟩
  | .hbm, ⟨80, _⟩ => ⟨S400000, .i32⟩
  | .hbm, ⟨81, _⟩ => ⟨S400000, .i1⟩
  | .hbm, ⟨82, _⟩ => ⟨S_, .i32⟩
  | .hbm, ⟨83, _⟩ => ⟨S400000, .i32⟩
  | .hbm, ⟨84, _⟩ => ⟨S400000, .i32⟩
  | .hbm, ⟨85, _⟩ => ⟨S400000, .i32⟩
  | .hbm, ⟨86, _⟩ => ⟨S400000x1, .i32⟩
  | .hbm, ⟨87, _⟩ => ⟨S400000x128, .bf16⟩
  | .hbm, ⟨88, _⟩ => ⟨S1x128, .f32⟩
  | .hbm, ⟨89, _⟩ => ⟨S1x128, .f32⟩
  | .hbm, ⟨90, _⟩ => ⟨S1x1, .f32⟩
  | .hbm, ⟨91, _⟩ => ⟨S400000x1, .f32⟩
  | .hbm, ⟨92, _⟩ => ⟨S200000x1, .f32⟩
  | .hbm, ⟨93, _⟩ => ⟨S200000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S8000x128, .bf16⟩
  | .local _ .vmem, ⟨25, _⟩ => ⟨S8000x128, .bf16⟩
  | .local _ .vmem, ⟨26, _⟩ => ⟨S8000x128, .bf16⟩
  | .local _ .vmem, ⟨27, _⟩ => ⟨S8000x128, .bf16⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S8000x1, .f32⟩
  | .local _ .vmem, ⟨35, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_1 : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_3 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_4 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_7 : Ref sig .tc := ⟨.hbm, 70, rfl⟩
abbrev main_v42 : Ref sig .tc := ⟨.hbm, 71, rfl⟩
abbrev main_v43 : Ref sig .tc := ⟨.hbm, 72, rfl⟩
abbrev main_c_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S8000x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  concatenates_S200000_S200000_S400000_d0 : Shape.Concatenates [S200000, S200000] S400000 0
  bcast_S_S400000 : S_.BroadcastsInDim S400000 (![] : Fin 0 → Fin S400000.rank)
  bcast_S400000_S400000x1_0 : S400000.BroadcastsInDim S400000x1 (![0] : Fin 1 → Fin S400000x1.rank)
  shapeCasts_S128_S1x128 : S128.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  slices_S400000x1_S200000x1_0_0 : S400000x1.Slices ![0, 0] S200000x1
  slices_S400000x1_S200000x1_200000_0 : S400000x1.Slices ![200000, 0] S200000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S400000x1_S400000x128_1_0_n_n_0_1_1128_wf : GatherDims.WF S100000x128 S400000x1 S400000x128 [1] [0] [] [0] [] 1 ![1, 128]
  dot_S8000x128_S128x128_S8000x128_1_0_0_1_n_n_wf : DotDims.WF S8000x128 S128x128 S8000x128 [1] [0] [0] [1] [] []
  dot_S8000x128_S128x1_S8000x1_1_0_0_1_n_n_wf : DotDims.WF S8000x128 S128x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x128.size a ≤ S400000x128.size a
  hwx3_0 : ∀ i : grid3.Coords, EltTy.bits .bf16 = 32 ∨ (Rect.block (s := S400000x128) S8000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x128.size a ≤ S400000x128.size a
  hwx3_1 : ∀ i : grid3.Coords, EltTy.bits .bf16 = 32 ∨ (Rect.block (s := S400000x128) S8000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x1.size a ≤ S128x1.size a
  hwx3_6 : ∀ i : grid3.Coords, EltTy.bits .f32 = 32 ∨ (Rect.block (s := S128x1) S128x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x1.size a ≤ S1x1.size a
  hwx3_7 : ∀ i : grid3.Coords, EltTy.bits .f32 = 32 ∨ (Rect.block (s := S1x1) S1x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8000x1.size a ≤ S400000x1.size a
  hwx3_8 : ∀ i : grid3.Coords, EltTy.bits .f32 = 32 ∨ (Rect.block (s := S400000x1) S8000x1.size (cc3_transform_8 i) (hinb3_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S8000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S8000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg13) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg15) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v57) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg17) S128x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v58) S1x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v59) S8000x1.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S200000 : Shape := ⟨1, ![200000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x128 : Shape := ⟨2, ![1600000, 128]⟩
abbrev S200000x1 : Shape := ⟨2, ![200000, 1]⟩
abbrev S200000x128 : Shape := ⟨2, ![200000, 128]⟩
abbrev S1x128 : Shape := ⟨2, ![1, 128]⟩
abbrev S1x1 : Shape := ⟨2, ![1, 1]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S200000, .i32⟩
  | 4 => ⟨S200000, .i32⟩
  | 5 => ⟨S200000, .i32⟩
  | 6 => ⟨S200000, .i32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x128, .f32⟩
  | 38 => ⟨S_, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x128, .f32⟩
  | 91 => ⟨S_, .i32⟩
  | 92 => ⟨S200000, .i32⟩
  | 93 => ⟨S200000, .i1⟩
  | 94 => ⟨S_, .i32⟩
  | 95 => ⟨S200000, .i32⟩
  | 96 => ⟨S200000, .i32⟩
  | 97 => ⟨S200000, .i32⟩
  | 98 => ⟨S200000x1, .i32⟩
  | 99 => ⟨S200000x128, .f32⟩
  | 100 => ⟨S200000x128, .f32⟩
  | 101 => ⟨S200000x128, .f32⟩
  | 102 => ⟨S1x128, .f32⟩
  | 103 => ⟨S200000x128, .f32⟩
  | 104 => ⟨S200000x128, .f32⟩
  | 105 => ⟨S_, .f32⟩
  | 106 => ⟨S200000x128, .f32⟩
  | 107 => ⟨S200000x128, .f32⟩
  | 108 => ⟨S200000x128, .f32⟩
  | 109 => ⟨S1x128, .f32⟩
  | 110 => ⟨S200000x128, .f32⟩
  | 111 => ⟨S200000x128, .f32⟩
  | 112 => ⟨S_, .f32⟩
  | 113 => ⟨S200000x128, .f32⟩
  | 114 => ⟨S200000x128, .f32⟩
  | 115 => ⟨S200000x1, .f32⟩
  | 116 => ⟨S1x1, .f32⟩
  | 117 => ⟨S200000x1, .f32⟩
  | 118 => ⟨S200000x1, .f32⟩
  | 119 => ⟨S_, .i32⟩
  | 120 => ⟨S200000, .i32⟩
  | 121 => ⟨S200000, .i1⟩
  | 122 => ⟨S_, .i32⟩
  | 123 => ⟨S200000, .i32⟩
  | 124 => ⟨S200000, .i32⟩
  | 125 => ⟨S200000, .i32⟩
  | 126 => ⟨S200000x1, .i32⟩
  | 127 => ⟨S200000x128, .f32⟩
  | _ => ⟨S100000x128, .f32⟩

abbrev hbmTy0_1 (i : Nat) : BufTy := match i % 128 with
  | 0 => ⟨S_, .i32⟩
  | 1 => ⟨S200000, .i32⟩
  | 2 => ⟨S200000, .i1⟩
  | 3 => ⟨S_, .i32⟩
  | 4 => ⟨S200000, .i32⟩
  | 5 => ⟨S200000, .i32⟩
  | 6 => ⟨S200000, .i32⟩
  | 7 => ⟨S200000x1, .i32⟩
  | 8 => ⟨S200000x128, .f32⟩
  | 9 => ⟨S200000x128, .f32⟩
  | 10 => ⟨S200000x128, .f32⟩
  | 11 => ⟨S1x128, .f32⟩
  | 12 => ⟨S200000x128, .f32⟩
  | 13 => ⟨S200000x128, .f32⟩
  | 14 => ⟨S_, .f32⟩
  | 15 => ⟨S200000x128, .f32⟩
  | 16 => ⟨S200000x128, .f32⟩
  | 17 => ⟨S200000x128, .f32⟩
  | 18 => ⟨S1x128, .f32⟩
  | 19 => ⟨S200000x128, .f32⟩
  | 20 => ⟨S200000x128, .f32⟩
  | 21 => ⟨S_, .f32⟩
  | 22 => ⟨S200000x128, .f32⟩
  | 23 => ⟨S200000x128, .f32⟩
  | 24 => ⟨S200000x1, .f32⟩
  | 25 => ⟨S1x1, .f32⟩
  | 26 => ⟨S200000x1, .f32⟩
  | 27 => ⟨S200000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_6 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_c_8 : Ref sig .tc := ⟨.hbm, 63, rfl⟩
abbrev main_v34 : Ref sig .tc := ⟨.hbm, 64, rfl⟩
abbrev main_v35 : Ref sig .tc := ⟨.hbm, 65, rfl⟩
abbrev main_c_9 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_10 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_11 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_c_13 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_c_14 : Ref sig .tc := ⟨.hbm, 91, rfl⟩
abbrev main_v56 : Ref sig .tc := ⟨.hbm, 92, rfl⟩
abbrev main_v57 : Ref sig .tc := ⟨.hbm, 93, rfl⟩
abbrev main_c_15 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_17 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_18 : Ref sig .tc := ⟨.hbm, 119, rfl⟩
abbrev main_v80 : Ref sig .tc := ⟨.hbm, 120, rfl⟩
abbrev main_v81 : Ref sig .tc := ⟨.hbm, 121, rfl⟩
abbrev main_c_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_c_20 : Ref sig .tc := ⟨.hbm, 128, rfl⟩
abbrev main_v87 : Ref sig .tc := ⟨.hbm, 129, rfl⟩
abbrev main_v88 : Ref sig .tc := ⟨.hbm, 130, rfl⟩
abbrev main_c_21 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  dot_S200000x128_S128x128_S200000x128_1_0_0_1_n_n_wf : DotDims.WF S200000x128 S128x128 S200000x128 [1] [0] [0] [1] [] []
  dot_S200000x128_S128x1_S200000x1_1_0_0_1_n_n_wf : DotDims.WF S200000x128 S128x1 S200000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def dot_S200000x128_S128x1_S200000x1_1_0_0_1_n_n : DotDims S200000x128 S128x1 S200000x1 where
  lhsContracting := [1]
  rhsContracting := [0]
  lhsNonContracting := [0]
  rhsNonContracting := [1]
  lhsBatch := []
  rhsBatch := []
  wf := dot_S200000x128_S128x1_S200000x1_1_0_0_1_n_n_wf

class Facts : Prop extends Facts₀ where

variable [Facts]
-- ==== Proof.KernelRun.lean ====
/-
  The idealized kernel's run with its two results named.

  The program is nine segments: a stretch of host operations, a region, a stretch, … , a last stretch (the two slices).
  The buffer contents at each boundary are a fold from the launch memory: a stretch applies its operations
  (`StableHlo.after`), a region replaces its arrays by what its write-backs leave. Every weakly fair execution
  terminates, faulting nowhere, with every unscoped buffer at the last boundary's contents; here that fact is kept
  for the two result buffers as well as for the nineteen arguments (which no segment writes).
-/
import proofs.«156789_j26877905339098_2_alg».proof.Proof.Gen.KernelIdeal.Frame

set_option maxRecDepth 16384

noncomputable section

namespace Cert.Bridge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the idealized kernel's @main terminates, nothing faulting, with the two result
    buffers at the last boundary's contents and the argument arrays as launched. -/
theorem run_results : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c)⟩)

end Cert.Bridge

end
-- ==== Proof.Boundaries.lean ====
/-
  The buffer contents at the boundaries between the idealized kernel's segments, read at the buffers that matter.

  Between the launch and the return the program alternates stretches of host operations with its four regions. A
  stretch leaves every buffer it does not write as it was, and a region leaves every buffer that is not one of its
  arrays as it was; no stretch and no region writes an argument. So at each boundary an argument still holds its
  launch contents — stated here, boundary by boundary, for the arguments that are read at or after that boundary.
-/
import proofs.«156789_j26877905339098_2_alg».proof.Proof.Gen.KernelIdeal.Frame
import Idealize.ShloMosaic.PureOps.Ideal
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers the operations of host stretch 0 write. -/
abbrev wl0 : List (Ref sig .tc) := [main_v0, main_c, main_v1, main_v2, main_c_0, main_v3, main_v4, main_v5, main_v6, main_v7, main_v8, main_cst, main_v9, main_v10, main_v11]
theorem writes0 : (hostOps0 (F := Ideal)).Forall fun op => op.writes ⊆ (wl0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- The buffers the operations of host stretch 1 write. -/
abbrev wl1 : List (Ref sig .tc) := [main_v13, main_c_1, main_v14, main_v15, main_c_2, main_v16, main_v17, main_v18, main_v19, main_v20, main_v21, main_cst_3, main_v22, main_v23, main_v24]
theorem writes1 : (hostOps1 (F := Ideal)).Forall fun op => op.writes ⊆ (wl1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- The buffers the operations of host stretch 2 write. -/
abbrev wl2 : List (Ref sig .tc) := [main_v26, main_c_4, main_v27, main_v28, main_c_5, main_v29, main_v30, main_v31, main_v32, main_v33, main_v34, main_cst_6, main_v35, main_v36, main_v37]
theorem writes2 : (hostOps2 (F := Ideal)).Forall fun op => op.writes ⊆ (wl2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- The buffers the operations of host stretch 3 write. -/
abbrev wl3 : List (Ref sig .tc) := [main_v39, main_v40, main_v41, main_c_7, main_v42, main_v43, main_c_8, main_v44, main_v45, main_v46, main_v47, main_v48, main_c_9, main_v49, main_v50, main_c_10, main_v51, main_v52, main_v53, main_v54, main_v55, main_v56, main_v57, main_v58]
theorem writes3 : (hostOps3 (F := Ideal)).Forall fun op => op.writes ⊆ (wl3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- The arguments read at or after each boundary: all nineteen after the first stretch; from the first region's exit on,
    all but the first layer's features and weights; from the second region's exit on, not the second layer's weights
    either; from the third region's exit on, the edge indices and the scorer's weights and biases. -/
abbrev args1 : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]
abbrev args2 : List (Ref sig .tc) := [main_arg1, main_arg2, main_arg3, main_arg4, main_arg5, main_arg6, main_arg9, main_arg10, main_arg11, main_arg12, main_arg13, main_arg14, main_arg15, main_arg16, main_arg17, main_arg18]
abbrev args4 : List (Ref sig .tc) := [main_arg1, main_arg2, main_arg3, main_arg4, main_arg5, main_arg6, main_arg11, main_arg12, main_arg13, main_arg14, main_arg15, main_arg16, main_arg17, main_arg18]
abbrev args6 : List (Ref sig .tc) := [main_arg3, main_arg4, main_arg5, main_arg6, main_arg13, main_arg14, main_arg15, main_arg16, main_arg17, main_arg18]

/-! At every boundary an argument still read later holds its launch contents. -/
theorem keep1 (c : Dev nD) : ∀ r ∈ args1, W1 m ρ c (Proc.devRef .tc r) = m ((c : Thread nD τ).loc r) := fun r hr =>
  StableHlo.after_of_writes_sub hostOps0 (W0 m ρ c) writes0 ((by decide : ∀ r ∈ args1, r ∉ wl0) r hr)

theorem keep2 (c : Dev nD) : ∀ r ∈ args2, W2 m ρ c (Proc.devRef .tc r) = m ((c : Thread nD τ).loc r) := fun r hr =>
  (W2_of_ne m ρ c r fun w => (by decide : ∀ r ∈ args2, ∀ w : Fin 5, Pipeline.arrRef spec0 w ≠ r) r hr w).trans
    (keep1 m ρ c r ((by decide : ∀ r ∈ args2, r ∈ args1) r hr))

theorem keep3 (c : Dev nD) : ∀ r ∈ args2, W3 m ρ c (Proc.devRef .tc r) = m ((c : Thread nD τ).loc r) := fun r hr =>
  (StableHlo.after_of_writes_sub hostOps1 (W2 m ρ c) writes1 ((by decide : ∀ r ∈ args2, r ∉ wl1) r hr)).trans
    (keep2 m ρ c r hr)

theorem keep4 (c : Dev nD) : ∀ r ∈ args4, W4 m ρ c (Proc.devRef .tc r) = m ((c : Thread nD τ).loc r) := fun r hr =>
  (W4_of_ne m ρ c r fun w => (by decide : ∀ r ∈ args4, ∀ w : Fin 5, Pipeline.arrRef spec1 w ≠ r) r hr w).trans
    (keep3 m ρ c r ((by decide : ∀ r ∈ args4, r ∈ args2) r hr))

theorem keep5 (c : Dev nD) : ∀ r ∈ args4, W5 m ρ c (Proc.devRef .tc r) = m ((c : Thread nD τ).loc r) := fun r hr =>
  (StableHlo.after_of_writes_sub hostOps2 (W4 m ρ c) writes2 ((by decide : ∀ r ∈ args4, r ∉ wl2) r hr)).trans
    (keep4 m ρ c r hr)

theorem keep6 (c : Dev nD) : ∀ r ∈ args6, W6 m ρ c (Proc.devRef .tc r) = m ((c : Thread nD τ).loc r) := fun r hr =>
  (W6_of_ne m ρ c r fun w => (by decide : ∀ r ∈ args6, ∀ w : Fin 5, Pipeline.arrRef spec2 w ≠ r) r hr w).trans
    (keep5 m ρ c r ((by decide : ∀ r ∈ args6, r ∈ args4) r hr))

theorem keep7 (c : Dev nD) : ∀ r ∈ args6, W7 m ρ c (Proc.devRef .tc r) = m ((c : Thread nD τ).loc r) := fun r hr =>
  (StableHlo.after_of_writes_sub hostOps3 (W6 m ρ c) writes3 ((by decide : ∀ r ∈ args6, r ∉ wl3) r hr)).trans
    (keep6 m ρ c r hr)

end Cert.Bridge

end
-- ==== Proof.HostSide.lean ====
/-
  What the idealized kernel's host operations compute between its regions, as functions of whole arrays.

  Before each graph-isomorphism layer the host sums, for every node, the features of its in-neighbours: the source
  indices are wrapped (a negative index counts from the end), the feature rows at those indices are gathered — from the
  features narrowed to bf16 and widened again, the identity at the extended reals — and scatter-added into a zero
  matrix at the destination indices. Before the edge scorer it lays the positive and negative edges' endpoint indices
  end to end, wraps them, and gathers the narrowed final features at them.
-/
import proofs.«156789_j26877905339098_2_alg».proof.Proof.Gen.KernelIdeal
import Idealize.ShloMosaic.PureOps.Ideal

noncomputable section

namespace Cert.Bridge

open Idealize.ShloMosaic

/-- The neighbour sums of the features h along the edges src → dst, as the kernel's host side computes them. -/
def aggK (h : FVec Ideal Cert.KernelIdeal.S100000x128 .f32) (src dst : IVec Cert.KernelIdeal.S1600000 32) : FVec Ideal Cert.KernelIdeal.S100000x128 .f32 :=
  Host.scatterAdd Cert.KernelIdeal.scatter_S100000x128_S1600000x1_S1600000x128_1_0_0_1
    (broadcastInDim Cert.KernelIdeal.S100000x128 ![] Cert.KernelIdeal.Gen.bcast_S_S100000x128 (constant Cert.KernelIdeal.S_ FTy.f32 0#32))
    (broadcastInDim Cert.KernelIdeal.S1600000x1 ![0] Cert.KernelIdeal.Gen.bcast_S1600000_S1600000x1_0 dst)
    (extf FTy.f32
      (Host.gather Cert.KernelIdeal.gather_S100000x128_S1600000x1_S1600000x128_1_0_n_n_0_1_1128
        (truncf FTy.bf16 h Cert.KernelIdeal.Gen.bitsLt_bf16_f32)
        (broadcastInDim Cert.KernelIdeal.S1600000x1 ![0] Cert.KernelIdeal.Gen.bcast_S1600000_S1600000x1_0
          (select (cmpi CmpIPredicate.slt src (broadcastInDim Cert.KernelIdeal.S1600000 ![] Cert.KernelIdeal.Gen.bcast_S_S1600000 (constantI Cert.KernelIdeal.S_ 32 0#32)))
            (addi src (broadcastInDim Cert.KernelIdeal.S1600000 ![] Cert.KernelIdeal.Gen.bcast_S_S1600000 (constantI Cert.KernelIdeal.S_ 32 100000#32))) src)))
      Cert.KernelIdeal.Gen.bitsLt_bf16_f32)

/-- Two vectors of 200000 edge endpoints laid end to end. -/
def catK (i1 i2 : IVec Cert.KernelIdeal.S200000 32) : IVec Cert.KernelIdeal.S400000 32 :=
  concatenate Cert.KernelIdeal.S400000 0 [⟨Cert.KernelIdeal.S200000, i1⟩, ⟨Cert.KernelIdeal.S200000, i2⟩] Cert.KernelIdeal.Gen.concatenates_S200000_S200000_S400000_d0

/-- The rows of the narrowed features h at the wrapped endpoints i1 then i2, as the kernel's host side gathers them. -/
def pickK (h : FVec Ideal Cert.KernelIdeal.S100000x128 .f32) (i1 i2 : IVec Cert.KernelIdeal.S200000 32) : FVec Ideal Cert.KernelIdeal.S400000x128 .bf16 :=
  Host.gather Cert.KernelIdeal.gather_S100000x128_S400000x1_S400000x128_1_0_n_n_0_1_1128
    (truncf FTy.bf16 h Cert.KernelIdeal.Gen.bitsLt_bf16_f32)
    (broadcastInDim Cert.KernelIdeal.S400000x1 ![0] Cert.KernelIdeal.Gen.bcast_S400000_S400000x1_0
      (select (cmpi CmpIPredicate.slt (catK i1 i2) (broadcastInDim Cert.KernelIdeal.S400000 ![] Cert.KernelIdeal.Gen.bcast_S_S400000 (constantI Cert.KernelIdeal.S_ 32 0#32)))
        (addi (catK i1 i2) (broadcastInDim Cert.KernelIdeal.S400000 ![] Cert.KernelIdeal.Gen.bcast_S_S400000 (constantI Cert.KernelIdeal.S_ 32 100000#32))) (catK i1 i2)))

end Cert.Bridge

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«156789_j26877905339098_2_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«156789_j26877905339098_2_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«156789_j26877905339098_2_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibNarrowRight.lean ====
/-
  Blocks of rows of a dense layer at the extended reals: four more ways a block is carried.

  At the extended reals a float of every format is an extended real and a change of format is the identity. So a
  block of rows (held in any format) times a weight matrix that is narrowed from f32 on the way into the matrix
  unit, accumulated into the zero matrix, is that block of rows of the host's product with the weight matrix
  itself; the entrywise product of two blocks held in any one format is the block of the entrywise product; and
  a matrix filled with one number inside a kernel body and a rank-0 constant broadcast on the host are two
  constant matrices of one value; and a block of rows of a block of rows of a matrix is a block of rows of it. No
  finiteness is asked of any entry.
-/
import proofs.«156789_j26877905339098_2_alg».proof.Proof.LibBlockFormats

noncomputable section

open scoped BigOperators

namespace Cert.Lib.DenseLayer

open Idealize.ShloMosaic Idealize.ShloMosaic.ValueIdx Cert.Lib.PlainDot

/-- A block of rows in any format times a weight matrix narrowed from f32, accumulated into the zero matrix,
    is the block of rows of the host's product with the weight matrix itself: the narrowing is the identity,
    and both sides are the sum over k of x(r, k) · w(k, c). -/
theorem RowBlk.matmulNarrowRight {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ ψ : FTy}
    {xb : FVec Ideal ⟨2, ![Mb, K]⟩ φ₁} {X : FVec Ideal ⟨2, ![M, K]⟩ .f32} (h : RowBlk off xb X)
    (w : FVec Ideal ⟨2, ![K, N]⟩ .f32) (hψ : ψ.bits < FTy.f32.bits) :
    RowBlk off (Idealize.ShloMosaic.matmul db none xb (truncf ψ w hψ) (constant ⟨2, ![Mb, N]⟩ .f32 0x00000000#32))
      (Host.dotGeneral dh none X w) := fun r hr c =>
  ((Ideal.matmul_constant_zero_apply db none xb (truncf ψ w hψ) (ix2 r c)).trans
    (contraction_sum db hb.rank hb.size hb.l0 hb.l1 hb.r0 hb.r1 xb (truncf ψ w hψ) r c)).trans
    ((Finset.sum_congr rfl fun k _ => congrArg (· * w (ix2 k c)) (h r hr k)).trans
      (hh.dot_apply X w ⟨off + r.val, hr⟩ c).symm)

/-- Entrywise products of blocks of rows held in any one float format. -/
theorem RowBlk.mulAny {Mb M K : Nat} {off : Nat} {φ : FTy} {a b : FVec Ideal ⟨2, ![Mb, K]⟩ φ}
    {A B : FVec Ideal ⟨2, ![M, K]⟩ .f32} (ha : RowBlk off a A) (hb : RowBlk off b B) :
    RowBlk off (mulf a b) (mulf A B) := fun r hr k => by
  rw [mulf_apply, mulf_apply]
  show a (ix2 r k) * b (ix2 r k) = A (ix2 ⟨off + r.val, hr⟩ k) * B (ix2 ⟨off + r.val, hr⟩ k)
  rw [ha r hr k, hb r hr k]

/-- A block filled with the float of one bit pattern inside a body, and the rank-0 constant of that pattern
    broadcast to a whole matrix on the host, are constant matrices of one value. -/
theorem RowBlk.fill {Mb M K : Nat} {off : Nat} (bits : BitVec FTy.f32.bits)
    (hB : (⟨0, ![]⟩ : Shape).BroadcastsInDim ⟨2, ![M, K]⟩ ![]) :
    RowBlk (Mb := Mb) off (broadcast ⟨2, ![Mb, K]⟩ (Scalar.ofBits (F := Ideal) .f32 bits))
      (broadcastInDim ⟨2, ![M, K]⟩ ![] hB (constant (F := Ideal) ⟨0, ![]⟩ .f32 bits)) := fun r hr k =>
  (broadcastInDim_apply _ hB (constant (F := Ideal) ⟨0, ![]⟩ .f32 bits) (ix2 ⟨off + r.val, hr⟩ k) (fun a => a.elim0)
    (fun a => a.elim0)).symm

/-- A block of rows of a block of rows is a block of rows: if xb is the rows of X from row off₂ + off₁ and Y is the rows
    of X from row off₂, then xb is the rows of Y from row off₁ (when it fits inside Y, and Y inside X). -/
theorem RowBlk.sub {Mb Mm M K : Nat} {off off₁ off₂ : Nat} {xb : (⟨2, ![Mb, K]⟩ : Shape).Idx → EReal}
    {X : (⟨2, ![M, K]⟩ : Shape).Idx → EReal} {Y : (⟨2, ![Mm, K]⟩ : Shape).Idx → EReal}
    (h : RowBlk off xb X) (hY : RowBlk off₂ Y X) (e : off = off₂ + off₁) (hM : off₂ + Mm ≤ M) :
    RowBlk off₁ xb Y := fun r hr k => by
  subst e
  have hr' : off₂ + off₁ + r.val < M := by omega
  rw [h r hr' k, hY ⟨off₁ + r.val, hr⟩ (by show off₂ + (off₁ + r.val) < M; omega) k]
  exact congrArg (fun q => X (ix2 q k)) (Fin.ext (by show off₂ + off₁ + r.val = off₂ + (off₁ + r.val); omega))

end Cert.Lib.DenseLayer

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«156789_j26877905339098_2_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.Layers.lean ====
/-
  The two kinds of kernel body of the graph network, each on one block of rows, against the host's whole matrices.

  A graph-isomorphism layer sends node features h and neighbour sums a to (relu ((h + a) · w₁)) · w₂, followed by
  a relu in all layers but the last; the edge scorer sends an entrywise product e of two gathered feature rows to
  (relu (relu (e · p₁ + b₁) · p₂ + b₂)) · p₃ + b₃. Every one of these operations acts on each row by itself, so the
  kernel body — which holds a block of consecutive rows, narrows each matrix-unit operand to bf16 (the identity at
  the extended reals) and accumulates each product into the zero matrix — leaves the same block of rows of what
  the host's operations make of the whole matrices. No finiteness is asked of any entry.
-/
import proofs.«156789_j26877905339098_2_alg».proof.Proof.Gen.KernelIdeal.Frame
import proofs.«156789_j26877905339098_2_alg».proof.Proof.LibNarrowRight
import proofs.«156789_j26877905339098_2_alg».proof.Proof.LibRowRead

noncomputable section

namespace Cert.Bridge

open Idealize.ShloMosaic Idealize.ShloMosaic.ValueIdx Cert.Lib.DenseLayer Cert.KernelIdeal Cert.KernelIdeal.Gen

/-- The zero offsets of a rank-2 rectangle, however spelt. -/
theorem zero2 : (![0, 0] : Fin 2 → Nat) = fun _ => 0 := funext fun a => by fin_cases a <;> rfl

/-- The M-by-K matrix of zeros as the host makes it: the rank-0 constant 0.0 broadcast. -/
abbrev zeroMat (M K : Nat) (hB : (⟨0, ![]⟩ : Shape).BroadcastsInDim ⟨2, ![M, K]⟩ ![]) : FVec Ideal ⟨2, ![M, K]⟩ .f32 :=
  broadcastInDim ⟨2, ![M, K]⟩ ![] hB (constant (F := Ideal) ⟨0, ![]⟩ .f32 0x00000000#32)

/-- The two-matrix perceptron of a graph-isomorphism layer on whole matrices: (relu ((h + a) · w₁)) · w₂. -/
def ginMlp {M : Nat} (d : DotDims ⟨2, ![M, 128]⟩ ⟨2, ![128, 128]⟩ ⟨2, ![M, 128]⟩)
    (hB : (⟨0, ![]⟩ : Shape).BroadcastsInDim ⟨2, ![M, 128]⟩ ![])
    (h a : FVec Ideal ⟨2, ![M, 128]⟩ .f32) (w1 w2 : FVec Ideal ⟨2, ![128, 128]⟩ .f32) : FVec Ideal ⟨2, ![M, 128]⟩ .f32 :=
  Host.dotGeneral d none (maximumf (Host.dotGeneral d none (addf h a) w1) (zeroMat M 128 hB)) w2

/-- The edge scorer on whole matrices: (relu (relu (e · p₁ + b₁) · p₂ + b₂)) · p₃ + b₃, each bias one row. -/
def edgeMlp {M : Nat} (d1 : DotDims ⟨2, ![M, 128]⟩ ⟨2, ![128, 128]⟩ ⟨2, ![M, 128]⟩)
    (d3 : DotDims ⟨2, ![M, 128]⟩ ⟨2, ![128, 1]⟩ ⟨2, ![M, 1]⟩)
    (hB : (⟨0, ![]⟩ : Shape).BroadcastsInDim ⟨2, ![M, 128]⟩ ![])
    (hb1 : (⟨2, ![1, 128]⟩ : Shape).BroadcastsInDim ⟨2, ![M, 128]⟩ ![0, 1])
    (hb3 : (⟨2, ![1, 1]⟩ : Shape).BroadcastsInDim ⟨2, ![M, 1]⟩ ![0, 1])
    (e : FVec Ideal ⟨2, ![M, 128]⟩ .f32) (p1 : FVec Ideal ⟨2, ![128, 128]⟩ .f32) (b1 : FVec Ideal ⟨2, ![1, 128]⟩ .f32)
    (p2 : FVec Ideal ⟨2, ![128, 128]⟩ .f32) (b2 : FVec Ideal ⟨2, ![1, 128]⟩ .f32)
    (p3 : FVec Ideal ⟨2, ![128, 1]⟩ .f32) (b3 : FVec Ideal ⟨2, ![1, 1]⟩ .f32) : FVec Ideal ⟨2, ![M, 1]⟩ .f32 :=
  addf (Host.dotGeneral d3 none
      (maximumf (addf (Host.dotGeneral d1 none
          (maximumf (addf (Host.dotGeneral d1 none e p1) (broadcastInDim ⟨2, ![M, 128]⟩ ![0, 1] hb1 b1)) (zeroMat M 128 hB)) p2)
        (broadcastInDim ⟨2, ![M, 128]⟩ ![0, 1] hb1 b2)) (zeroMat M 128 hB)) p3)
    (broadcastInDim ⟨2, ![M, 1]⟩ ![0, 1] hb3 b3)

/-- The kernel bodies' three product records are the plain rows-by-columns product. -/
theorem plain5000 : Plain (M := 5000) (K := 128) (N := 128) dot_S5000x128_S128x128_S5000x128_1_0_0_1_n_n :=
  Plain.of_fields _ rfl rfl rfl rfl rfl rfl
theorem plain8000 : Plain (M := 8000) (K := 128) (N := 128) dot_S8000x128_S128x128_S8000x128_1_0_0_1_n_n :=
  Plain.of_fields _ rfl rfl rfl rfl rfl rfl
theorem plain8000x1 : Plain (M := 8000) (K := 128) (N := 1) dot_S8000x128_S128x1_S8000x1_1_0_0_1_n_n :=
  Plain.of_fields _ rfl rfl rfl rfl rfl rfl

section Gin
variable {M off : Nat} {d : DotDims ⟨2, ![M, 128]⟩ ⟨2, ![128, 128]⟩ ⟨2, ![M, 128]⟩} (hd : Plain d)
  (hB : (⟨0, ![]⟩ : Shape).BroadcastsInDim ⟨2, ![M, 128]⟩ ![])
  {x0 x1 : Vec Ideal S5000x128 .f32} (w1 w2 : Vec Ideal S128x128 .f32) {H A : FVec Ideal ⟨2, ![M, 128]⟩ .f32}

include hd in
/-- The first layer's body on a block of rows: the block of relu of the perceptron of the whole matrices. -/
theorem gin0_block (h0 : RowBlk off x0 H) (h1 : RowBlk off x1 A) :
    RowBlk off (out0_4 x0 x1 w1 w2) (maximumf (ginMlp d hB H A w1 w2) (zeroMat M 128 hB)) := by
  unfold out0_4
  rw [View.canon_unit_zero zero2]
  simp only [View.ld_unit_zero (S := S5000x128) zero2, View.ld_unit_zero (S := S128x128) zero2]
  unfold k0_pay1 ginMlp
  simp only [shapeCast_self]
  exact RowBlk.max (RowBlk.matmulNarrowRight plain5000 hd (RowBlk.narrow (RowBlk.max
    (RowBlk.matmulNarrowRight plain5000 hd (RowBlk.narrow (RowBlk.add h0 h1) _) w1 _) (RowBlk.fill _ hB)) _) w2 _)
    (RowBlk.fill _ hB)

include hd in
/-- The second layer's body on a block of rows. -/
theorem gin1_block (h0 : RowBlk off x0 H) (h1 : RowBlk off x1 A) :
    RowBlk off (out1_4 x0 x1 w1 w2) (maximumf (ginMlp d hB H A w1 w2) (zeroMat M 128 hB)) := by
  unfold out1_4
  rw [View.canon_unit_zero zero2]
  simp only [View.ld_unit_zero (S := S5000x128) zero2, View.ld_unit_zero (S := S128x128) zero2]
  unfold k1_pay1 ginMlp
  simp only [shapeCast_self]
  exact RowBlk.max (RowBlk.matmulNarrowRight plain5000 hd (RowBlk.narrow (RowBlk.max
    (RowBlk.matmulNarrowRight plain5000 hd (RowBlk.narrow (RowBlk.add h0 h1) _) w1 _) (RowBlk.fill _ hB)) _) w2 _)
    (RowBlk.fill _ hB)

include hd in
/-- The last layer's body on a block of rows: no relu after the second product. -/
theorem gin2_block (h0 : RowBlk off x0 H) (h1 : RowBlk off x1 A) :
    RowBlk off (out2_4 x0 x1 w1 w2) (ginMlp d hB H A w1 w2) := by
  unfold out2_4
  rw [View.canon_unit_zero zero2]
  simp only [View.ld_unit_zero (S := S5000x128) zero2, View.ld_unit_zero (S := S128x128) zero2]
  unfold k2_pay1 ginMlp
  simp only [shapeCast_self]
  exact RowBlk.matmulNarrowRight plain5000 hd (RowBlk.narrow (RowBlk.max
    (RowBlk.matmulNarrowRight plain5000 hd (RowBlk.narrow (RowBlk.add h0 h1) _) w1 _) (RowBlk.fill _ hB)) _) w2 _

end Gin

section Edge
variable {M off : Nat} {d1 : DotDims ⟨2, ![M, 128]⟩ ⟨2, ![128, 128]⟩ ⟨2, ![M, 128]⟩}
  {d3 : DotDims ⟨2, ![M, 128]⟩ ⟨2, ![128, 1]⟩ ⟨2, ![M, 1]⟩} (hd1 : Plain d1) (hd3 : Plain d3)
  (hB : (⟨0, ![]⟩ : Shape).BroadcastsInDim ⟨2, ![M, 128]⟩ ![])
  (hb1 : (⟨2, ![1, 128]⟩ : Shape).BroadcastsInDim ⟨2, ![M, 128]⟩ ![0, 1])
  (hb3 : (⟨2, ![1, 1]⟩ : Shape).BroadcastsInDim ⟨2, ![M, 1]⟩ ![0, 1])
  {x0 x1 : Vec Ideal S8000x128 .bf16} (p1 : Vec Ideal S128x128 .f32) (b1 : Vec Ideal S1x128 .f32)
  (p2 : Vec Ideal S128x128 .f32) (b2 : Vec Ideal S1x128 .f32) (p3 : Vec Ideal S128x1 .f32) (b3 : Vec Ideal S1x1 .f32)
  {A B : FVec Ideal ⟨2, ![M, 128]⟩ .f32}

include hd1 hd3 in
/-- The edge scorer's body on a block of rows of the two gathered matrices. -/
theorem edge_block (h0 : RowBlk off x0 A) (h1 : RowBlk off x1 B) :
    RowBlk off (out3_8 x0 x1 p1 b1 p2 b2 p3 b3) (edgeMlp d1 d3 hB hb1 hb3 (mulf A B) p1 b1 p2 b2 p3 b3) := by
  unfold out3_8
  rw [View.canon_unit_zero zero2]
  simp only [View.ld_unit_zero (S := S8000x128) zero2, View.ld_unit_zero (S := S128x128) zero2,
    View.ld_unit_zero (S := S1x128) zero2, View.ld_unit_zero (S := S128x1) zero2, View.ld_unit_zero (S := S1x1) zero2]
  unfold k3_pay1 edgeMlp
  simp only [shapeCast_self]
  exact RowBlk.add
    (RowBlk.matmulNarrowRight plain8000x1 hd3 (RowBlk.narrow (RowBlk.max (RowBlk.add
      (RowBlk.matmulNarrowRight plain8000 hd1 (RowBlk.narrow (RowBlk.max (RowBlk.add
        (RowBlk.matmulNarrowRight plain8000 hd1 (RowBlk.mulAny h0 h1) p1 _) (RowBlk.bias b1 _ hb1)) (RowBlk.fill _ hB)) _) p2 _)
      (RowBlk.bias b2 _ hb1)) (RowBlk.fill _ hB)) _) p3 _)
    (RowBlk.bias b3 _ hb3)

end Edge

end Cert.Bridge

end
-- ==== Proof.LayerArray0.lean ====
/-
  The first graph-isomorphism layer's region, from blocks to the array.

  The region has twenty grid points; point t stages rows 5000·t … 5000·t + 4999 of the node features and of the
  neighbour sums and both whole weight matrices, and writes back the same rows of its output. Each body leaves the
  block of rows of relu ((relu ((h + a) · w₁)) · w₂) (the layer on whole matrices), the twenty blocks tile the output
  array, so the array ends holding the layer of the arrays the region found.
-/
import proofs.«156789_j26877905339098_2_alg».proof.Proof.Layers
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.Lib.DenseLayer Cert.KernelIdeal Cert.KernelIdeal.Gen

/-! ## Layer 0: the region's output array is the layer of the arrays the region finds -/

section Layer0
variable (V : (c : Dev nD) → (b : Ref sig .tc) → Buf (Elt Ideal) ((c : Thread nD τ).loc b))

/-- The printed index maps over the grid: the row-blocked windows' block at point t is block t along the rows, the
    weight windows stay at block 0. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The feature window's block at point t is the block of 5000 rows from row 5000·t. -/
theorem blk0_0 (c : Dev nD) (t : Fin cfg0.N) :
    RowBlk (Mb := 5000) (M := 100000) (K := 128) (5000 * t.val) (iblk0 V c 0 t) (V c main_arg0) := by
  obtain ⟨e0, e1, -⟩ := idx0 t
  refine RowBlk.of_read (fun y => ((cfg0.win 0).blk t).view.emb y) (fun y => ?_) (fun y => ?_) (fun y => rfl)
  · show win0_0.index t (0 : Fin 2) * 5000 + 1 * (y 0).val = 5000 * t.val + (y 0).val; omega
  · show win0_0.index t (1 : Fin 2) * 128 + 1 * (y 1).val = (y 1).val; omega

/-- The neighbour-sum window's block at point t is the block of 5000 rows from row 5000·t. -/
theorem blk0_1 (c : Dev nD) (t : Fin cfg0.N) :
    RowBlk (Mb := 5000) (M := 100000) (K := 128) (5000 * t.val) (iblk0 V c 1 t) (V c main_v11) := by
  obtain ⟨-, -, e0, e1, -⟩ := idx0 t
  refine RowBlk.of_read (fun y => ((cfg0.win 1).blk t).view.emb y) (fun y => ?_) (fun y => ?_) (fun y => rfl)
  · show win0_1.index t (0 : Fin 2) * 5000 + 1 * (y 0).val = 5000 * t.val + (y 0).val; omega
  · show win0_1.index t (1 : Fin 2) * 128 + 1 * (y 1).val = (y 1).val; omega

/-- A weight window's block at every point is the whole weight matrix. -/
theorem blk0_2 (c : Dev nD) (t : Fin cfg0.N) : iblk0 V c 2 t = V c main_arg7 := by
  obtain ⟨-, -, -, -, e0, e1, -⟩ := idx0 t
  funext y
  show V c main_arg7 (((cfg0.win 2).blk t).view.emb y) = V c main_arg7 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk0_3 (c : Dev nD) (t : Fin cfg0.N) : iblk0 V c 3 t = V c main_arg8 := by
  obtain ⟨-, -, -, -, -, -, e0, e1, -⟩ := idx0 t
  funext y
  show V c main_arg8 (((cfg0.win 3).blk t).view.emb y) = V c main_arg8 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

variable {dR : DotDims ⟨2, ![100000, 128]⟩ ⟨2, ![128, 128]⟩ ⟨2, ![100000, 128]⟩} (hd : Plain dR)
  (hB : (⟨0, ![]⟩ : Shape).BroadcastsInDim ⟨2, ![100000, 128]⟩ ![])

include hd in
/-- What point t writes back is block t of the layer of the whole arrays. -/
theorem flushed0 (c : Dev nD) (t : Fin cfg0.N) :
    (dat0 V c).flushed 4 t = ((cfg0.win 4).blk t).view.read (Elt Ideal) (maximumf (ginMlp (M := 100000) dR hB (V c main_arg0) (V c main_v11) (V c main_arg7) (V c main_arg8)) (zeroMat 100000 128 hB)) := by
  show (cfg0.win 4).cut (grid0.coords t) ((dat0 V c).after 4 t) = _
  rw [after0_4, blk0_2, blk0_3]
  obtain ⟨-, -, -, -, -, -, -, -, e0, e1⟩ := idx0 t
  funext j
  refine RowBlk.read (gin0_block hd hB (V c main_arg7) (V c main_arg8) (blk0_0 V c t) (blk0_1 V c t)) j
    (((cfg0.win 4).blk t).view.emb j) ?_ ?_
  · show win0_4.index t (0 : Fin 2) * 5000 + 1 * (j 0).val = 5000 * t.val + (j 0).val; omega
  · show win0_4.index t (1 : Fin 2) * 128 + 1 * (j 1).val = (j 1).val; omega

/-- An index of the output array is in point t's block iff each coordinate is in the block's range. -/
theorem mem_blk0 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v12).slice (win0_4.rect t)).set ↔ _
  rw [View.set_slice_whole, Rect.mem_set_unit]
  exact Iff.rfl

/-- Row r of the output is written by point r / 5000: the twenty blocks tile the array. -/
theorem cover0 (i : S100000x128.Idx) :
    ∃ t : Fin cfg0.N, (cfg0.win 4).flush t = true ∧ i ∈ ((cfg0.win 4).blk t).view.set := by
  have hN : grid0.N = 20 := N_0
  have hi0 : (i 0).val < 100000 := (i 0).isLt
  have hi1 : (i 1).val < 128 := (i 1).isLt
  let t : Fin cfg0.N := ⟨(i 0).val / 5000, by show (i 0).val / 5000 < grid0.N; omega⟩
  obtain ⟨-, -, -, -, -, -, -, -, e0, e1⟩ := idx0 t
  have ht : t.val = (i 0).val / 5000 := rfl
  refine ⟨t, flush0_4 t, ?_⟩
  rw [mem_blk0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

include hd in
/-- The region's output array after its twenty points: the layer of the arrays the region finds. -/
theorem layer0_array (c : Dev nD) :
    (dat0 V c).arrAt 4 cfg0.N = (maximumf (ginMlp (M := 100000) dR hB (V c main_arg0) (V c main_v11) (V c main_arg7) (V c main_arg8)) (zeroMat 100000 128 hB)) :=
  (dat0 V c).arrAt_eq_of_cover 4 _ (fun t _ => flushed0 V hd hB c t) (cover0)

end Layer0

end Cert.Bridge

end
-- ==== Proof.LayerArray1.lean ====
/-
  The second graph-isomorphism layer's region, from blocks to the array.

  As in the first layer: twenty grid points, point t staging rows 5000·t … 5000·t + 4999 of the node features (the first
  layer's output) and of their neighbour sums and both whole weight matrices; each body leaves the block of rows of
  relu ((relu ((h + a) · w₁)) · w₂), the twenty blocks tile the output array, so the array ends holding the layer of
  the arrays the region found.
-/
import proofs.«156789_j26877905339098_2_alg».proof.Proof.Layers
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.Lib.DenseLayer Cert.KernelIdeal Cert.KernelIdeal.Gen

/-! ## Layer 1: the region's output array is the layer of the arrays the region finds -/

section Layer1
variable (V : (c : Dev nD) → (b : Ref sig .tc) → Buf (Elt Ideal) ((c : Thread nD τ).loc b))

/-- The printed index maps over the grid: the row-blocked windows' block at point t is block t along the rows, the
    weight windows stay at block 0. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The feature window's block at point t is the block of 5000 rows from row 5000·t. -/
theorem blk1_0 (c : Dev nD) (t : Fin cfg1.N) :
    RowBlk (Mb := 5000) (M := 100000) (K := 128) (5000 * t.val) (iblk1 V c 0 t) (V c main_v12) := by
  obtain ⟨e0, e1, -⟩ := idx1 t
  refine RowBlk.of_read (fun y => ((cfg1.win 0).blk t).view.emb y) (fun y => ?_) (fun y => ?_) (fun y => rfl)
  · show win1_0.index t (0 : Fin 2) * 5000 + 1 * (y 0).val = 5000 * t.val + (y 0).val; omega
  · show win1_0.index t (1 : Fin 2) * 128 + 1 * (y 1).val = (y 1).val; omega

/-- The neighbour-sum window's block at point t is the block of 5000 rows from row 5000·t. -/
theorem blk1_1 (c : Dev nD) (t : Fin cfg1.N) :
    RowBlk (Mb := 5000) (M := 100000) (K := 128) (5000 * t.val) (iblk1 V c 1 t) (V c main_v24) := by
  obtain ⟨-, -, e0, e1, -⟩ := idx1 t
  refine RowBlk.of_read (fun y => ((cfg1.win 1).blk t).view.emb y) (fun y => ?_) (fun y => ?_) (fun y => rfl)
  · show win1_1.index t (0 : Fin 2) * 5000 + 1 * (y 0).val = 5000 * t.val + (y 0).val; omega
  · show win1_1.index t (1 : Fin 2) * 128 + 1 * (y 1).val = (y 1).val; omega

/-- A weight window's block at every point is the whole weight matrix. -/
theorem blk1_2 (c : Dev nD) (t : Fin cfg1.N) : iblk1 V c 2 t = V c main_arg9 := by
  obtain ⟨-, -, -, -, e0, e1, -⟩ := idx1 t
  funext y
  show V c main_arg9 (((cfg1.win 2).blk t).view.emb y) = V c main_arg9 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem blk1_3 (c : Dev nD) (t : Fin cfg1.N) : iblk1 V c 3 t = V c main_arg10 := by
  obtain ⟨-, -, -, -, -, -, e0, e1, -⟩ := idx1 t
  funext y
  show V c main_arg10 (((cfg1.win 3).blk t).view.emb y) = V c main_arg10 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

variable {dR : DotDims ⟨2, ![100000, 128]⟩ ⟨2, ![128, 128]⟩ ⟨2, ![100000, 128]⟩} (hd : Plain dR)
  (hB : (⟨0, ![]⟩ : Shape).BroadcastsInDim ⟨2, ![100000, 128]⟩ ![])

include hd in
/-- What point t writes back is block t of the layer of the whole arrays. -/
theorem flushed1 (c : Dev nD) (t : Fin cfg1.N) :
    (dat1 V c).flushed 4 t = ((cfg1.win 4).blk t).view.read (Elt Ideal) (maximumf (ginMlp (M := 100000) dR hB (V c main_v12) (V c main_v24) (V c main_arg9) (V c main_arg10)) (zeroMat 100000 128 hB)) := by
  show (cfg1.win 4).cut (grid1.coords t) ((dat1 V c).after 4 t) = _
  rw [after1_4, blk1_2, blk1_3]
  obtain ⟨-, -, -, -, -, -, -, -, e0, e1⟩ := idx1 t
  funext j
  refine RowBlk.read (gin1_block hd hB (V c main_arg9) (V c main_arg10) (blk1_0 V c t) (blk1_1 V c t)) j
    (((cfg1.win 4).blk t).view.emb j) ?_ ?_
  · show win1_4.index t (0 : Fin 2) * 5000 + 1 * (j 0).val = 5000 * t.val + (j 0).val; omega
  · show win1_4.index t (1 : Fin 2) * 128 + 1 * (j 1).val = (j 1).val; omega

/-- An index of the output array is in point t's block iff each coordinate is in the block's range. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v25).slice (win1_4.rect t)).set ↔ _
  rw [View.set_slice_whole, Rect.mem_set_unit]
  exact Iff.rfl

/-- Row r of the output is written by point r / 5000: the twenty blocks tile the array. -/
theorem cover1 (i : S100000x128.Idx) :
    ∃ t : Fin cfg1.N, (cfg1.win 4).flush t = true ∧ i ∈ ((cfg1.win 4).blk t).view.set := by
  have hN : grid1.N = 20 := N_1
  have hi0 : (i 0).val < 100000 := (i 0).isLt
  have hi1 : (i 1).val < 128 := (i 1).isLt
  let t : Fin cfg1.N := ⟨(i 0).val / 5000, by show (i 0).val / 5000 < grid1.N; omega⟩
  obtain ⟨-, -, -, -, -, -, -, -, e0, e1⟩ := idx1 t
  have ht : t.val = (i 0).val / 5000 := rfl
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

include hd in
/-- The region's output array after its twenty points: the layer of the arrays the region finds. -/
theorem layer1_array (c : Dev nD) :
    (dat1 V c).arrAt 4 cfg1.N = (maximumf (ginMlp (M := 100000) dR hB (V c main_v12) (V c main_v24) (V c main_arg9) (V c main_arg10)) (zeroMat 100000 128 hB)) :=
  (dat1 V c).arrAt_eq_of_cover 4 _ (fun t _ => flushed1 V hd hB c t) (cover1)

end Layer1

end Cert.Bridge

end
-- ==== Proof.LayerArray2.lean ====
/-
  The last graph-isomorphism layer's region, from blocks to the array.

  As in the first two layers, but with no relu after the second product: each body leaves the block of rows of
  (relu ((h + a) · w₁)) · w₂, the twenty blocks tile the output array, so the array ends holding that function of the
  arrays the region found.
-/
import proofs.«156789_j26877905339098_2_alg».proof.Proof.Layers
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.Lib.DenseLayer Cert.KernelIdeal Cert.KernelIdeal.Gen

/-! ## Layer 2: the region's output array is the layer of the arrays the region finds -/

section Layer2
variable (V : (c : Dev nD) → (b : Ref sig .tc) → Buf (Elt Ideal) ((c : Thread nD τ).loc b))

/-- The printed index maps over the grid: the row-blocked windows' block at point t is block t along the rows, the
    weight windows stay at block 0. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The feature window's block at point t is the block of 5000 rows from row 5000·t. -/
theorem blk2_0 (c : Dev nD) (t : Fin cfg2.N) :
    RowBlk (Mb := 5000) (M := 100000) (K := 128) (5000 * t.val) (iblk2 V c 0 t) (V c main_v25) := by
  obtain ⟨e0, e1, -⟩ := idx2 t
  refine RowBlk.of_read (fun y => ((cfg2.win 0).blk t).view.emb y) (fun y => ?_) (fun y => ?_) (fun y => rfl)
  · show win2_0.index t (0 : Fin 2) * 5000 + 1 * (y 0).val = 5000 * t.val + (y 0).val; omega
  · show win2_0.index t (1 : Fin 2) * 128 + 1 * (y 1).val = (y 1).val; omega

/-- The neighbour-sum window's block at point t is the block of 5000 rows from row 5000·t. -/
theorem blk2_1 (c : Dev nD) (t : Fin cfg2.N) :
    RowBlk (Mb := 5000) (M := 100000) (K := 128) (5000 * t.val) (iblk2 V c 1 t) (V c main_v37) := by
  obtain ⟨-, -, e0, e1, -⟩ := idx2 t
  refine RowBlk.of_read (fun y => ((cfg2.win 1).blk t).view.emb y) (fun y => ?_) (fun y => ?_) (fun y => rfl)
  · show win2_1.index t (0 : Fin 2) * 5000 + 1 * (y 0).val = 5000 * t.val + (y 0).val; omega
  · show win2_1.index t (1 : Fin 2) * 128 + 1 * (y 1).val = (y 1).val; omega

/-- A weight window's block at every point is the whole weight matrix. -/
theorem blk2_2 (c : Dev nD) (t : Fin cfg2.N) : iblk2 V c 2 t = V c main_arg11 := by
  obtain ⟨-, -, -, -, e0, e1, -⟩ := idx2 t
  funext y
  show V c main_arg11 (((cfg2.win 2).blk t).view.emb y) = V c main_arg11 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem blk2_3 (c : Dev nD) (t : Fin cfg2.N) : iblk2 V c 3 t = V c main_arg12 := by
  obtain ⟨-, -, -, -, -, -, e0, e1, -⟩ := idx2 t
  funext y
  show V c main_arg12 (((cfg2.win 3).blk t).view.emb y) = V c main_arg12 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

variable {dR : DotDims ⟨2, ![100000, 128]⟩ ⟨2, ![128, 128]⟩ ⟨2, ![100000, 128]⟩} (hd : Plain dR)
  (hB : (⟨0, ![]⟩ : Shape).BroadcastsInDim ⟨2, ![100000, 128]⟩ ![])

include hd in
/-- What point t writes back is block t of the layer of the whole arrays. -/
theorem flushed2 (c : Dev nD) (t : Fin cfg2.N) :
    (dat2 V c).flushed 4 t = ((cfg2.win 4).blk t).view.read (Elt Ideal) (ginMlp (M := 100000) dR hB (V c main_v25) (V c main_v37) (V c main_arg11) (V c main_arg12)) := by
  show (cfg2.win 4).cut (grid2.coords t) ((dat2 V c).after 4 t) = _
  rw [after2_4, blk2_2, blk2_3]
  obtain ⟨-, -, -, -, -, -, -, -, e0, e1⟩ := idx2 t
  funext j
  refine RowBlk.read (gin2_block hd hB (V c main_arg11) (V c main_arg12) (blk2_0 V c t) (blk2_1 V c t)) j
    (((cfg2.win 4).blk t).view.emb j) ?_ ?_
  · show win2_4.index t (0 : Fin 2) * 5000 + 1 * (j 0).val = 5000 * t.val + (j 0).val; omega
  · show win2_4.index t (1 : Fin 2) * 128 + 1 * (j 1).val = (j 1).val; omega

/-- An index of the output array is in point t's block iff each coordinate is in the block's range. -/
theorem mem_blk2 (t : Fin cfg2.N) (i : S100000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v38).slice (win2_4.rect t)).set ↔ _
  rw [View.set_slice_whole, Rect.mem_set_unit]
  exact Iff.rfl

/-- Row r of the output is written by point r / 5000: the twenty blocks tile the array. -/
theorem cover2 (i : S100000x128.Idx) :
    ∃ t : Fin cfg2.N, (cfg2.win 4).flush t = true ∧ i ∈ ((cfg2.win 4).blk t).view.set := by
  have hN : grid2.N = 20 := N_2
  have hi0 : (i 0).val < 100000 := (i 0).isLt
  have hi1 : (i 1).val < 128 := (i 1).isLt
  let t : Fin cfg2.N := ⟨(i 0).val / 5000, by show (i 0).val / 5000 < grid2.N; omega⟩
  obtain ⟨-, -, -, -, -, -, -, -, e0, e1⟩ := idx2 t
  have ht : t.val = (i 0).val / 5000 := rfl
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

include hd in
/-- The region's output array after its twenty points: the layer of the arrays the region finds. -/
theorem layer2_array (c : Dev nD) :
    (dat2 V c).arrAt 4 cfg2.N = (ginMlp (M := 100000) dR hB (V c main_v25) (V c main_v37) (V c main_arg11) (V c main_arg12)) :=
  (dat2 V c).arrAt_eq_of_cover 4 _ (fun t _ => flushed2 V hd hB c t) (cover2)

end Layer2

end Cert.Bridge

end
-- ==== Proof.EdgeArray.lean ====
/-
  The edge scorer's region, from blocks to the array.

  The region scores 400000 edges, the 200000 positive ones followed by the 200000 negative ones, in fifty grid points of
  8000 edges each: point t stages rows 8000·t … 8000·t + 7999 of the two gathered feature matrices and all six weight
  and bias arrays whole, and writes back the same rows of its one-column output. 200000 is 25 blocks, so each block lies
  wholly among the positive edges or wholly among the negative ones; a block of rows of a block of rows is a block of
  rows, so each body leaves a block of rows of the scorer of the positive (or of the negative) gathered matrices, and
  the fifty blocks tile the output: it ends holding the two host results stacked, positive edges first.
-/
import proofs.«156789_j26877905339098_2_alg».proof.Proof.Layers
import Idealize.ShloMosaic.Lib.Pipeline.Value

set_option maxRecDepth 16384

noncomputable section

namespace Cert.Bridge

open Idealize.ShloMosaic Idealize.ShloMosaic.TcCoe Idealize.ShloMosaic.ValueIdx Idealize.SL.Sem
open Idealize.ShloMosaic.Pipeline (Dat Cfg Window)
open Cert.Lib.DenseLayer Cert.KernelIdeal Cert.KernelIdeal.Gen

/-- Two one-column arrays of 200000 rows stacked into one of 400000 rows, the first on top. -/
def stack2 (P Q : (⟨2, ![200000, 1]⟩ : Shape).Idx → EReal) : (⟨2, ![400000, 1]⟩ : Shape).Idx → EReal := fun i =>
  if h : (i 0).val < 200000 then P (ix2 ⟨(i 0).val, h⟩ ⟨0, Nat.one_pos⟩)
  else Q (ix2 ⟨(i 0).val - 200000, by have h4 : (i 0).val < 400000 := (i 0).isLt; omega⟩ ⟨0, Nat.one_pos⟩)

/-- Row r < 200000 of the stack is row r of the top array. -/
theorem stack2_top (P Q : (⟨2, ![200000, 1]⟩ : Shape).Idx → EReal) (i : (⟨2, ![400000, 1]⟩ : Shape).Idx)
    (i' : (⟨2, ![200000, 1]⟩ : Shape).Idx) (h0 : (i' 0).val = (i 0).val) : stack2 P Q i = P i' := by
  have hlt : (i 0).val < 200000 := h0 ▸ (i' 0).isLt
  have h1 : (i' 1).val < 1 := (i' 1).isLt
  unfold stack2
  rw [dif_pos hlt]
  exact congrArg P (idx2_ext _ _ h0.symm (by show 0 = (i' 1).val; omega))

/-- Row 200000 + r of the stack is row r of the bottom array. -/
theorem stack2_bot (P Q : (⟨2, ![200000, 1]⟩ : Shape).Idx → EReal) (i : (⟨2, ![400000, 1]⟩ : Shape).Idx)
    (i' : (⟨2, ![200000, 1]⟩ : Shape).Idx) (h0 : (i 0).val = 200000 + (i' 0).val) : stack2 P Q i = Q i' := by
  have h1 : (i' 1).val < 1 := (i' 1).isLt
  unfold stack2
  rw [dif_neg (by omega)]
  exact congrArg Q (idx2_ext _ _ (by show (i 0).val - 200000 = (i' 0).val; omega) (by show 0 = (i' 1).val; omega))

section Edge
variable (V : (c : Dev nD) → (b : Ref sig .tc) → Buf (Elt Ideal) ((c : Thread nD τ).loc b))

/-- The printed index maps of the row-blocked windows over the grid: block t along the rows. -/
theorem idx3_rows : ∀ t : Fin cfg3.N,
    win3_0.index t (0 : Fin 2) = t.val ∧ win3_0.index t (1 : Fin 2) = 0
    ∧ win3_1.index t (0 : Fin 2) = t.val ∧ win3_1.index t (1 : Fin 2) = 0
    ∧ win3_8.index t (0 : Fin 2) = t.val ∧ win3_8.index t (1 : Fin 2) = 0 :=
  (by decide +kernel : ∀ t : Fin grid3.N, _)

/-- The weight and bias windows stay at block 0. -/
theorem idx3_whole : ∀ t : Fin cfg3.N,
    win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- A gathered-feature window's block at point t is the block of 8000 rows from row 8000·t. -/
theorem blk3_0 (c : Dev nD) (t : Fin cfg3.N) :
    RowBlk (Mb := 8000) (M := 400000) (K := 128) (8000 * t.val) (iblk3 V c 0 t) (V c main_v48) := by
  obtain ⟨e0, e1, -⟩ := idx3_rows t
  refine RowBlk.of_read (fun y => ((cfg3.win 0).blk t).view.emb y) (fun y => ?_) (fun y => ?_) (fun y => rfl)
  · show win3_0.index t (0 : Fin 2) * 8000 + 1 * (y 0).val = 8000 * t.val + (y 0).val; omega
  · show win3_0.index t (1 : Fin 2) * 128 + 1 * (y 1).val = (y 1).val; omega

theorem blk3_1 (c : Dev nD) (t : Fin cfg3.N) :
    RowBlk (Mb := 8000) (M := 400000) (K := 128) (8000 * t.val) (iblk3 V c 1 t) (V c main_v55) := by
  obtain ⟨-, -, e0, e1, -⟩ := idx3_rows t
  refine RowBlk.of_read (fun y => ((cfg3.win 1).blk t).view.emb y) (fun y => ?_) (fun y => ?_) (fun y => rfl)
  · show win3_1.index t (0 : Fin 2) * 8000 + 1 * (y 0).val = 8000 * t.val + (y 0).val; omega
  · show win3_1.index t (1 : Fin 2) * 128 + 1 * (y 1).val = (y 1).val; omega

/-! A weight or bias window's block at every point is its whole array. -/

theorem blk3_2 (c : Dev nD) (t : Fin cfg3.N) : iblk3 V c 2 t = V c main_arg13 := by
  have e := idx3_whole t
  funext y
  show V c main_arg13 (((cfg3.win 2).blk t).view.emb y) = V c main_arg13 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

theorem blk3_3 (c : Dev nD) (t : Fin cfg3.N) : iblk3 V c 3 t = V c main_v56 := by
  have e := idx3_whole t
  funext y
  show V c main_v56 (((cfg3.win 3).blk t).view.emb y) = V c main_v56 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem blk3_4 (c : Dev nD) (t : Fin cfg3.N) : iblk3 V c 4 t = V c main_arg15 := by
  have e := idx3_whole t
  funext y
  show V c main_arg15 (((cfg3.win 4).blk t).view.emb y) = V c main_arg15 y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

theorem blk3_5 (c : Dev nD) (t : Fin cfg3.N) : iblk3 V c 5 t = V c main_v57 := by
  have e := idx3_whole t
  funext y
  show V c main_v57 (((cfg3.win 5).blk t).view.emb y) = V c main_v57 y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

theorem blk3_6 (c : Dev nD) (t : Fin cfg3.N) : iblk3 V c 6 t = V c main_arg17 := by
  have e := idx3_whole t
  funext y
  show V c main_arg17 (((cfg3.win 6).blk t).view.emb y) = V c main_arg17 y
  refine congrArg _ (funext fun a => Fin.ext ?_)
  match a with
  | ⟨0, _⟩ => show win3_6.index t (0 : Fin 2) * 128 + 1 * (y 0).val = (y 0).val; omega
  | ⟨1, _⟩ => show win3_6.index t (1 : Fin 2) * 1 + 1 * (y 1).val = (y 1).val; omega

theorem blk3_7 (c : Dev nD) (t : Fin cfg3.N) : iblk3 V c 7 t = V c main_v58 := by
  have e := idx3_whole t
  funext y
  show V c main_v58 (((cfg3.win 7).blk t).view.emb y) = V c main_v58 y
  refine congrArg _ (funext fun a => Fin.ext ?_)
  match a with
  | ⟨0, _⟩ => show win3_7.index t (0 : Fin 2) * 1 + 1 * (y 0).val = (y 0).val; omega
  | ⟨1, _⟩ => show win3_7.index t (1 : Fin 2) * 1 + 1 * (y 1).val = (y 1).val; omega

variable {d1 : DotDims ⟨2, ![200000, 128]⟩ ⟨2, ![128, 128]⟩ ⟨2, ![200000, 128]⟩}
  {d3 : DotDims ⟨2, ![200000, 128]⟩ ⟨2, ![128, 1]⟩ ⟨2, ![200000, 1]⟩} (hd1 : Plain d1) (hd3 : Plain d3)
  (hB : (⟨0, ![]⟩ : Shape).BroadcastsInDim ⟨2, ![200000, 128]⟩ ![])
  (hb1 : (⟨2, ![1, 128]⟩ : Shape).BroadcastsInDim ⟨2, ![200000, 128]⟩ ![0, 1])
  (hb3 : (⟨2, ![1, 1]⟩ : Shape).BroadcastsInDim ⟨2, ![200000, 1]⟩ ![0, 1])
  (c : Dev nD) {Ap An Bp Bn : FVec Ideal ⟨2, ![200000, 128]⟩ .f32}
  (hAp : RowBlk (Mb := 200000) (M := 400000) (K := 128) 0 Ap (V c main_v48))
  (hAn : RowBlk (Mb := 200000) (M := 400000) (K := 128) 200000 An (V c main_v48))
  (hBp : RowBlk (Mb := 200000) (M := 400000) (K := 128) 0 Bp (V c main_v55))
  (hBn : RowBlk (Mb := 200000) (M := 400000) (K := 128) 200000 Bn (V c main_v55))

/-- The scorer of one half of the edges, at the weights and biases the region finds. -/
abbrev scoreOf (E : FVec Ideal ⟨2, ![200000, 128]⟩ .f32) : FVec Ideal ⟨2, ![200000, 1]⟩ .f32 :=
  edgeMlp (M := 200000) d1 d3 hB hb1 hb3 E (V c main_arg13) (V c main_v56) (V c main_arg15) (V c main_v57)
    (V c main_arg17) (V c main_v58)

include hd1 hd3 hAp hAn hBp hBn in
/-- What point t writes back is block t of the two host results stacked. -/
theorem flushed3 (t : Fin cfg3.N) :
    (dat3 V c).flushed 8 t = ((cfg3.win 8).blk t).view.read (Elt Ideal)
      (stack2 (scoreOf V (d1 := d1) (d3 := d3) hB hb1 hb3 c (mulf Ap Bp)) (scoreOf V (d1 := d1) (d3 := d3) hB hb1 hb3 c (mulf An Bn))) := by
  show (cfg3.win 8).cut (grid3.coords t) ((dat3 V c).after 8 t) = _
  rw [after3_8, blk3_2, blk3_3, blk3_4, blk3_5, blk3_6, blk3_7]
  obtain ⟨-, -, -, -, e0, e1⟩ := idx3_rows t
  have hN : grid3.N = 50 := N_3
  have ht50 : t.val < 50 := hN ▸ t.isLt
  funext j
  have hj0 : (j 0).val < 8000 := (j 0).isLt
  have hrow : ((((cfg3.win 8).blk t).view.emb j) 0).val = 8000 * t.val + (j 0).val := by
    show win3_8.index t (0 : Fin 2) * 8000 + 1 * (j 0).val = 8000 * t.val + (j 0).val; omega
  show out3_8 (iblk3 V c 0 t) (iblk3 V c 1 t) (V c main_arg13) (V c main_v56) (V c main_arg15) (V c main_v57)
      (V c main_arg17) (V c main_v58) j = stack2 _ _ (((cfg3.win 8).blk t).view.emb j)
  by_cases ht : t.val < 25
  · have hA : RowBlk (8000 * t.val) (iblk3 V c 0 t) Ap :=
      RowBlk.sub (blk3_0 V c t) hAp (Nat.zero_add _).symm (by omega)
    have hBb : RowBlk (8000 * t.val) (iblk3 V c 1 t) Bp :=
      RowBlk.sub (blk3_1 V c t) hBp (Nat.zero_add _).symm (by omega)
    rw [stack2_top _ _ _ (ix2 (n0 := 200000) (n1 := 1) ⟨8000 * t.val + (j 0).val, by omega⟩ ⟨0, Nat.one_pos⟩) hrow.symm]
    exact RowBlk.read (edge_block hd1 hd3 hB hb1 hb3 _ _ _ _ _ _ hA hBb) j _ rfl
      (by have h1 : (j 1).val < 1 := (j 1).isLt; show 0 = (j 1).val; omega)
  · have hA : RowBlk (8000 * t.val - 200000) (iblk3 V c 0 t) An :=
      RowBlk.sub (blk3_0 V c t) hAn (by omega) (by omega)
    have hBb : RowBlk (8000 * t.val - 200000) (iblk3 V c 1 t) Bn :=
      RowBlk.sub (blk3_1 V c t) hBn (by omega) (by omega)
    rw [stack2_bot _ _ _ (ix2 (n0 := 200000) (n1 := 1) ⟨8000 * t.val - 200000 + (j 0).val, by omega⟩ ⟨0, Nat.one_pos⟩)
      (by rw [hrow]; show 8000 * t.val + (j 0).val = 200000 + (8000 * t.val - 200000 + (j 0).val); omega)]
    exact RowBlk.read (edge_block hd1 hd3 hB hb1 hb3 _ _ _ _ _ _ hA hBb) j _ rfl
      (by have h1 : (j 1).val < 1 := (j 1).isLt; show 0 = (j 1).val; omega)

/-- An index of the output array is in point t's block iff each coordinate is in the block's range. -/
theorem mem_blk3 (t : Fin cfg3.N) (i : S400000x1.Idx) :
    i ∈ ((cfg3.win 8).blk t).view.set ↔ ∀ a : Fin 2, win3_8.index t a * S8000x1.size a ≤ (i a).val
      ∧ (i a).val < win3_8.index t a * S8000x1.size a + S8000x1.size a := by
  show i ∈ ((View.whole main_v59).slice (win3_8.rect t)).set ↔ _
  rw [View.set_slice_whole, Rect.mem_set_unit]
  exact Iff.rfl

/-- Row r of the output is written by point r / 8000: the fifty blocks tile the array. -/
theorem cover3 (i : S400000x1.Idx) :
    ∃ t : Fin cfg3.N, (cfg3.win 8).flush t = true ∧ i ∈ ((cfg3.win 8).blk t).view.set := by
  have hN : grid3.N = 50 := N_3
  have hi0 : (i 0).val < 400000 := (i 0).isLt
  have hi1 : (i 1).val < 1 := (i 1).isLt
  let t : Fin cfg3.N := ⟨(i 0).val / 8000, by show (i 0).val / 8000 < grid3.N; omega⟩
  obtain ⟨-, -, -, -, e0, e1⟩ := idx3_rows t
  have ht : t.val = (i 0).val / 8000 := rfl
  refine ⟨t, flush3_8 t, ?_⟩
  rw [mem_blk3]
  intro a
  match a with
  | ⟨0, _⟩ => show win3_8.index t (0 : Fin 2) * 8000 ≤ (i 0).val ∧ (i 0).val < win3_8.index t (0 : Fin 2) * 8000 + 8000; omega
  | ⟨1, _⟩ => show win3_8.index t (1 : Fin 2) * 1 ≤ (i 1).val ∧ (i 1).val < win3_8.index t (1 : Fin 2) * 1 + 1; omega

include hd1 hd3 hAp hAn hBp hBn in
/-- The region's output array after its fifty points: the positive edges' scores on top of the negative edges'. -/
theorem edge_array :
    (dat3 V c).arrAt 8 cfg3.N
      = stack2 (scoreOf V (d1 := d1) (d3 := d3) hB hb1 hb3 c (mulf Ap Bp)) (scoreOf V (d1 := d1) (d3 := d3) hB hb1 hb3 c (mulf An Bn)) :=
  (dat3 V c).arrAt_eq_of_cover 8 _ (fun t _ => flushed3 V hd1 hd3 hB hb1 hb3 c hAp hAn hBp hBn t) (cover3)

end Edge

end Cert.Bridge

end
-- ==== Proof.BoundaryValues.lean ====
/-
  What each region of the idealized kernel finds and leaves, boundary by boundary.

  The first stretch of host operations computes the neighbour sums of the input features; the first region leaves the
  first layer of them; the next stretch sums that layer's neighbours, and so on through the three layers. The fourth
  stretch gathers the last layer's rows at the positive and negative edges' endpoints and reshapes the three biases; the
  fourth region scores the 400000 edges; the last stretch cuts the scores into the positive and the negative half.
  Each boundary's contents are read at the buffers the next segment reads, down to the launch contents of the arguments.
-/
import proofs.«156789_j26877905339098_2_alg».proof.Proof.Boundaries
import proofs.«156789_j26877905339098_2_alg».proof.Proof.HostSide
import proofs.«156789_j26877905339098_2_alg».proof.Proof.LayerArray0
import proofs.«156789_j26877905339098_2_alg».proof.Proof.LayerArray1
import proofs.«156789_j26877905339098_2_alg».proof.Proof.LayerArray2
import proofs.«156789_j26877905339098_2_alg».proof.Proof.EdgeArray

set_option maxRecDepth 16384

noncomputable section

namespace Cert.Bridge

open Idealize.ShloMosaic Idealize.ShloMosaic.TcCoe Idealize.ShloMosaic.ValueIdx Idealize.SL.Sem Idealize.ShloMosaic.StableHlo
open Cert.Lib.DenseLayer Cert.KernelIdeal Cert.KernelIdeal.Gen

variable (m : (ℓ : Loc nD τ sig) → Buf (Elt Ideal) ℓ) (ρ : Dev nD → PrngReg)

/-- The three layers' output arrays and the scorer's, as the regions leave them. -/
abbrev out0 (c : Dev nD) := (dat0 (V1 (F := Ideal) m ρ) c).arrAt 4 cfg0.N
abbrev out1 (c : Dev nD) := (dat1 (V3 (F := Ideal) m ρ) c).arrAt 4 cfg1.N
abbrev out2 (c : Dev nD) := (dat2 (V5 (F := Ideal) m ρ) c).arrAt 4 cfg2.N
abbrev out3 (c : Dev nD) := (dat3 (V7 (F := Ideal) m ρ) c).arrAt 8 cfg3.N

/-! ## The first layer -/

set_option maxHeartbeats 4000000 in
/-- The first stretch leaves the neighbour sums of the input features. -/
theorem W1_v11 (c : Dev nD) : W1 m ρ c (Proc.devRef .tc main_v11) = aggK (m ((c : Thread nD τ).loc main_arg0)) (m ((c : Thread nD τ).loc main_arg1)) (m ((c : Thread nD τ).loc main_arg2)) := by
  show StableHlo.after hostOps0 (W0 m ρ c) (Proc.devRef .tc main_v11) = _
  after_results
  rfl

section Layers
variable {dR : DotDims ⟨2, ![100000, 128]⟩ ⟨2, ![128, 128]⟩ ⟨2, ![100000, 128]⟩} (hd : Plain dR)
  (hB : (⟨0, ![]⟩ : Shape).BroadcastsInDim ⟨2, ![100000, 128]⟩ ![])

include hd in
/-- The first region leaves the first layer of the input features. -/
theorem out0_eq (c : Dev nD) :
    out0 m ρ c = maximumf (ginMlp (M := 100000) dR hB (m ((c : Thread nD τ).loc main_arg0)) (aggK (m ((c : Thread nD τ).loc main_arg0)) (m ((c : Thread nD τ).loc main_arg1)) (m ((c : Thread nD τ).loc main_arg2))) (m ((c : Thread nD τ).loc main_arg7)) (m ((c : Thread nD τ).loc main_arg8)))
      (zeroMat 100000 128 hB) := by
  refine (layer0_array (V1 m ρ) hd hB c).trans ?_
  show maximumf (ginMlp (M := 100000) dR hB (W1 m ρ c (Proc.devRef .tc main_arg0)) (W1 m ρ c (Proc.devRef .tc main_v11))
    (W1 m ρ c (Proc.devRef .tc main_arg7)) (W1 m ρ c (Proc.devRef .tc main_arg8))) _ = _
  rw [keep1 m ρ c main_arg0 (by decide), W1_v11, keep1 m ρ c main_arg7 (by decide), keep1 m ρ c main_arg8 (by decide)]

/-! ## The second layer -/

/-- The second stretch leaves the first layer's output where the first region put it. -/
theorem W3_v12 (c : Dev nD) : W3 m ρ c (Proc.devRef .tc main_v12) = out0 m ρ c :=
  (StableHlo.after_of_writes_sub hostOps1 (W2 m ρ c) writes1 (by decide : main_v12 ∉ wl1)).trans (W2_arr m ρ c 4)

set_option maxHeartbeats 4000000 in
/-- The second stretch leaves the neighbour sums of the first layer's output. -/
theorem W3_v24 (c : Dev nD) : W3 m ρ c (Proc.devRef .tc main_v24) = aggK (out0 m ρ c) (m ((c : Thread nD τ).loc main_arg1)) (m ((c : Thread nD τ).loc main_arg2)) := by
  show StableHlo.after hostOps1 (W2 m ρ c) (Proc.devRef .tc main_v24) = _
  after_results
  rw [show W2 m ρ c (Proc.devRef .tc main_v12) = out0 m ρ c from W2_arr m ρ c 4,
    keep2 m ρ c main_arg1 (by decide), keep2 m ρ c main_arg2 (by decide)]
  rfl

include hd in
/-- The second region leaves the second layer of the first layer's output. -/
theorem out1_eq (c : Dev nD) :
    out1 m ρ c = maximumf (ginMlp (M := 100000) dR hB (out0 m ρ c) (aggK (out0 m ρ c) (m ((c : Thread nD τ).loc main_arg1)) (m ((c : Thread nD τ).loc main_arg2))) (m ((c : Thread nD τ).loc main_arg9)) (m ((c : Thread nD τ).loc main_arg10)))
      (zeroMat 100000 128 hB) := by
  refine (layer1_array (V3 m ρ) hd hB c).trans ?_
  show maximumf (ginMlp (M := 100000) dR hB (W3 m ρ c (Proc.devRef .tc main_v12)) (W3 m ρ c (Proc.devRef .tc main_v24))
    (W3 m ρ c (Proc.devRef .tc main_arg9)) (W3 m ρ c (Proc.devRef .tc main_arg10))) _ = _
  rw [W3_v12, W3_v24, keep3 m ρ c main_arg9 (by decide), keep3 m ρ c main_arg10 (by decide)]

/-! ## The third layer -/

theorem W5_v25 (c : Dev nD) : W5 m ρ c (Proc.devRef .tc main_v25) = out1 m ρ c :=
  (StableHlo.after_of_writes_sub hostOps2 (W4 m ρ c) writes2 (by decide : main_v25 ∉ wl2)).trans (W4_arr m ρ c 4)

set_option maxHeartbeats 4000000 in
/-- The third stretch leaves the neighbour sums of the second layer's output. -/
theorem W5_v37 (c : Dev nD) : W5 m ρ c (Proc.devRef .tc main_v37) = aggK (out1 m ρ c) (m ((c : Thread nD τ).loc main_arg1)) (m ((c : Thread nD τ).loc main_arg2)) := by
  show StableHlo.after hostOps2 (W4 m ρ c) (Proc.devRef .tc main_v37) = _
  after_results
  rw [show W4 m ρ c (Proc.devRef .tc main_v25) = out1 m ρ c from W4_arr m ρ c 4,
    keep4 m ρ c main_arg1 (by decide), keep4 m ρ c main_arg2 (by decide)]
  rfl

include hd in
/-- The third region leaves the last layer (no relu after its second product) of the second layer's output. -/
theorem out2_eq (c : Dev nD) :
    out2 m ρ c = ginMlp (M := 100000) dR hB (out1 m ρ c) (aggK (out1 m ρ c) (m ((c : Thread nD τ).loc main_arg1)) (m ((c : Thread nD τ).loc main_arg2))) (m ((c : Thread nD τ).loc main_arg11)) (m ((c : Thread nD τ).loc main_arg12)) := by
  refine (layer2_array (V5 m ρ) hd hB c).trans ?_
  show ginMlp (M := 100000) dR hB (W5 m ρ c (Proc.devRef .tc main_v25)) (W5 m ρ c (Proc.devRef .tc main_v37))
    (W5 m ρ c (Proc.devRef .tc main_arg11)) (W5 m ρ c (Proc.devRef .tc main_arg12)) = _
  rw [W5_v25, W5_v37, keep5 m ρ c main_arg11 (by decide), keep5 m ρ c main_arg12 (by decide)]

end Layers

/-! ## The edge scorer -/

set_option maxHeartbeats 4000000 in
/-- The fourth stretch leaves the last layer's rows at the source endpoints of the positive then the negative edges, -/
theorem W7_v48 (c : Dev nD) : W7 m ρ c (Proc.devRef .tc main_v48) = pickK (out2 m ρ c) (m ((c : Thread nD τ).loc main_arg3)) (m ((c : Thread nD τ).loc main_arg5)) := by
  show StableHlo.after hostOps3 (W6 m ρ c) (Proc.devRef .tc main_v48) = _
  after_results
  rw [show W6 m ρ c (Proc.devRef .tc main_v38) = out2 m ρ c from W6_arr m ρ c 4,
    keep6 m ρ c main_arg3 (by decide), keep6 m ρ c main_arg5 (by decide)]
  rfl

set_option maxHeartbeats 4000000 in
/-- and at their destination endpoints, -/
theorem W7_v55 (c : Dev nD) : W7 m ρ c (Proc.devRef .tc main_v55) = pickK (out2 m ρ c) (m ((c : Thread nD τ).loc main_arg4)) (m ((c : Thread nD τ).loc main_arg6)) := by
  show StableHlo.after hostOps3 (W6 m ρ c) (Proc.devRef .tc main_v55) = _
  after_results
  rw [show W6 m ρ c (Proc.devRef .tc main_v38) = out2 m ρ c from W6_arr m ρ c 4,
    keep6 m ρ c main_arg4 (by decide), keep6 m ρ c main_arg6 (by decide)]
  rfl

set_option maxHeartbeats 4000000 in
/-- and the three biases, each reshaped to one row. -/
theorem W7_v56 (c : Dev nD) :
    W7 m ρ c (Proc.devRef .tc main_v56) = shapeCast S1x128 (m ((c : Thread nD τ).loc main_arg14)) Cert.KernelIdeal.Gen.shapeCasts_S128_S1x128 := by
  show StableHlo.after hostOps3 (W6 m ρ c) (Proc.devRef .tc main_v56) = _
  after_results
  rw [keep6 m ρ c main_arg14 (by decide)]
  rfl

set_option maxHeartbeats 4000000 in
theorem W7_v57 (c : Dev nD) :
    W7 m ρ c (Proc.devRef .tc main_v57) = shapeCast S1x128 (m ((c : Thread nD τ).loc main_arg16)) Cert.KernelIdeal.Gen.shapeCasts_S128_S1x128 := by
  show StableHlo.after hostOps3 (W6 m ρ c) (Proc.devRef .tc main_v57) = _
  after_results
  rw [keep6 m ρ c main_arg16 (by decide)]
  rfl

set_option maxHeartbeats 4000000 in
theorem W7_v58 (c : Dev nD) :
    W7 m ρ c (Proc.devRef .tc main_v58) = shapeCast S1x1 (m ((c : Thread nD τ).loc main_arg18)) Cert.KernelIdeal.Gen.shapeCasts_S1_S1x1 := by
  show StableHlo.after hostOps3 (W6 m ρ c) (Proc.devRef .tc main_v58) = _
  after_results
  rw [keep6 m ρ c main_arg18 (by decide)]
  rfl

end Cert.Bridge

end
-- ==== Proof.LibRowGather.lean ====
/-
  Picking rows by an array of integers.

  What `x[idx]` lowers to when `idx` is a vector of R integers presented as an [R, 1] array of start indices: a
  gather that collapses the operand's first axis, takes slices of one row, and reads the one component of each start
  index along the second axis of the start indices. Two operand ranks occur: a vector of N numbers (the result is a
  vector of R numbers) and an N-by-C matrix (the result is the R-by-C matrix of the picked rows). In both, result
  row p reads operand row `clampRow N (idx[p, 0])`: the start index read as a signed integer and clamped into
  [0, N - 1], so a negative index reads row 0 and an index past the end reads the last row. Consequently a quantity
  computed row by row from a matrix, then picked, is the same quantity computed from the picked rows.
-/
import Idealize.ShloMosaic.PureOps.ShapeOps
import Idealize.ShloMosaic.PureOps.Dims
import Idealize.ShloMosaic.Lib.ValueIdx

noncomputable section

namespace Cert.Lib.RowGather

open Idealize.ShloMosaic Idealize.ShloMosaic.ValueIdx

/-- The operand row a start index word selects among N rows: the word read signed, clamped into [0, N - 1]. -/
def clampRow (N : Nat) (hN : 0 < N) {w : Nat} (v : BitVec w) : Fin N := ⟨min v.toInt.toNat (N - 1), by omega⟩

/-- The dimension numbers of picking entries of a vector of N numbers by an [R, 1] array of start indices. -/
abbrev pickDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The dimension numbers of picking rows of an N-by-C matrix by an [R, 1] array of start indices. -/
abbrev pickRowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry p of the picked vector is the operand's entry at the clamped p-th start index. -/
theorem pick_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (pickDims N R wf) x idx (ix1 p)
      = x (ix1 (clampRow N hN (idx (ix2 (n0 := R) (n1 := 1) p ⟨0, Nat.one_pos⟩)))) := by
  unfold Host.gather
  congr 1
  funext a
  obtain rfl : a = 0 := Subsingleton.elim _ _
  refine Fin.ext ?_
  show (pickDims N R wf).start (ix1 p) idx 0 + (pickDims N R wf).batchCoord (ix1 p) 0 + (pickDims N R wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N R wf).startIndexMap from List.mem_singleton.mpr rfl)]
  have hsi : (pickDims N R wf).siIdx (ix1 p) ⟨List.idxOf (0 : Fin 1) (pickDims N R wf).startIndexMap,
      List.idxOf_lt_length_iff.2 (List.mem_singleton.mpr rfl)⟩ = ix2 (n0 := R) (n1 := 1) p ⟨0, Nat.one_pos⟩ := by
    funext b; refine Fin.ext ?_
    match b with
    | ⟨0, _⟩ => rfl
    | ⟨1, _⟩ => rfl
  rw [hsi]
  rfl

/-- Entry (p, q) of the picked rows is the operand's entry in column q of the row at the clamped p-th start index. -/
theorem pickRows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (pickRowsDims N C R wf) x idx (ix2 p q)
      = x (ix2 (clampRow N hN (idx (ix2 (n0 := R) (n1 := 1) p ⟨0, Nat.one_pos⟩))) q) := by
  have key0 : (pickRowsDims N C R wf).start (ix2 p q) idx (0 : Fin 2) + (pickRowsDims N C R wf).batchCoord (ix2 p q) (0 : Fin 2)
      + (pickRowsDims N C R wf).offCoord (ix2 p q) (0 : Fin 2)
      = (clampRow N hN (idx (ix2 (n0 := R) (n1 := 1) p ⟨0, Nat.one_pos⟩))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (pickRowsDims N C R wf).startIndexMap from List.mem_singleton.mpr rfl)]
    have hsi : (pickRowsDims N C R wf).siIdx (ix2 p q) ⟨List.idxOf (0 : Fin 2) (pickRowsDims N C R wf).startIndexMap,
        List.idxOf_lt_length_iff.2 (List.mem_singleton.mpr rfl)⟩ = ix2 (n0 := R) (n1 := 1) p ⟨0, Nat.one_pos⟩ := by
      funext b; refine Fin.ext ?_
      match b with
      | ⟨0, _⟩ => rfl
      | ⟨1, _⟩ => rfl
    rw [hsi]
    rfl
  have h1m : ¬ (1 : Fin 2) ∈ (pickRowsDims N C R wf).startIndexMap := by
    show ¬ (1 : Fin 2) ∈ ([0] : List (Fin 2)); decide
  have h1c : ¬ (1 : Fin 2) ∈ (pickRowsDims N C R wf).collapsedSliceDims := by
    show ¬ (1 : Fin 2) ∈ ([0] : List (Fin 2)); decide
  have h1k : (1 : Fin 2) ∈ (pickRowsDims N C R wf).sKept := (GatherDims.mem_sKept _ _).mpr ⟨h1c, List.not_mem_nil⟩
  have key1 : (pickRowsDims N C R wf).start (ix2 p q) idx (1 : Fin 2) + (pickRowsDims N C R wf).batchCoord (ix2 p q) (1 : Fin 2)
      + (pickRowsDims N C R wf).offCoord (ix2 p q) (1 : Fin 2) = q.val := by
    rw [GatherDims.batchCoord_eq_zero _ _ _ List.not_mem_nil]
    unfold GatherDims.start
    rw [dif_neg h1m]
    unfold GatherDims.offCoord
    rw [dif_pos h1k]
    simp only [Nat.add_zero, Nat.zero_add]
    rfl
  unfold Host.gather
  congr 1
  funext a
  refine Fin.ext ?_
  match a with
  | ⟨0, _⟩ => exact key0
  | ⟨1, _⟩ => exact key1

end Cert.Lib.RowGather

end
-- ==== Proof.LibIndexWrap.lean ====
/-
  Picking rows at wrapped indices, a block of the index column at a time.

  `x[idx]` on a matrix of N rows first wraps each index (a negative index v reads row v + N) and presents the wrapped
  indices as a one-column array; the gather then reads, for result row p, the operand row the p-th wrapped index
  names. Two facts: the wrapped column read at row r is the wrap of the r-th index word alone; and, because a picked
  row depends only on its own index entry, the rows picked by a block of rows of the index column are that block of
  rows of the rows picked by the whole column — whatever the operand, of any float format. Also: a vector of one
  entry made a 1-by-1 row by a reshape or by a broadcast along a new unit axis is one and the same row.
-/
import proofs.«156789_j26877905339098_2_alg».proof.Proof.LibRowGather
import proofs.«156789_j26877905339098_2_alg».proof.Proof.LibDenseLayer
import Idealize.ShloMosaic.Lib.Pipeline.Value

noncomputable section

namespace Cert.Lib.IndexWrap

open Idealize.ShloMosaic Idealize.ShloMosaic.ValueIdx Cert.Lib.DenseLayer Cert.Lib.RowGather

/-- One wrapped index word among n rows: a negative index counts from the end. -/
def wrapWord (n v : BitVec 32) : BitVec 32 := Scalar.select (IntOp.cmpi .slt v 0#32) (IntOp.addi v n) v

/-- The column of wrapped indices — select (v < 0) (v + n) v over a vector of R index words, made an R-by-1 array —
    read at row r: the wrap of the r-th index word. -/
theorem wrapCol_apply {R : Nat} (hR : R ≠ 1) (n : BitVec 32) (v : IVec ⟨1, ![R]⟩ 32)
    (hb0 : (⟨0, ![]⟩ : Shape).BroadcastsInDim ⟨1, ![R]⟩ ![]) (hb1 : (⟨1, ![R]⟩ : Shape).BroadcastsInDim ⟨2, ![R, 1]⟩ ![0])
    (r : Fin R) :
    broadcastInDim ⟨2, ![R, 1]⟩ ![0] hb1
        (select (cmpi CmpIPredicate.slt v (broadcastInDim ⟨1, ![R]⟩ ![] hb0 (constantI ⟨0, ![]⟩ 32 0#32)))
          (addi v (broadcastInDim ⟨1, ![R]⟩ ![] hb0 (constantI ⟨0, ![]⟩ 32 n))) v)
        (ix2 (n0 := R) (n1 := 1) r ⟨0, Nat.one_pos⟩)
      = wrapWord n (v (ix1 r)) := by
  rw [broadcastInDim_apply ![0] hb1 _ (ix2 (n0 := R) (n1 := 1) r ⟨0, Nat.one_pos⟩) (ix1 r) (fun a => by
    match a with
    | ⟨0, _⟩ => exact (if_neg hR).symm)]
  show Scalar.select (IntOp.cmpi .slt (v (ix1 r)) (broadcastInDim ⟨1, ![R]⟩ ![] hb0 (constantI ⟨0, ![]⟩ 32 0#32) (ix1 r)))
    (IntOp.addi (v (ix1 r)) (broadcastInDim ⟨1, ![R]⟩ ![] hb0 (constantI ⟨0, ![]⟩ 32 n) (ix1 r))) (v (ix1 r)) = _
  rw [broadcastInDim_apply ![] hb0 (constantI ⟨0, ![]⟩ 32 0#32) (ix1 r) (fun a => a.elim0) (fun a => a.elim0),
    broadcastInDim_apply ![] hb0 (constantI ⟨0, ![]⟩ 32 n) (ix1 r) (fun a => a.elim0) (fun a => a.elim0)]
  rfl

/-- The rows picked by a block of rows of the index column are that block of rows of the rows picked by the whole
    column: result row p reads the operand row its own index entry names, and nothing else. -/
theorem RowBlk.pickRows {N C Rb R w off : Nat} (hN : 0 < N)
    (wfb : GatherDims.WF ⟨2, ![N, C]⟩ ⟨2, ![Rb, 1]⟩ ⟨2, ![Rb, C]⟩ [1] [0] [] [0] [] 1 ![1, C])
    (wf : GatherDims.WF ⟨2, ![N, C]⟩ ⟨2, ![R, 1]⟩ ⟨2, ![R, C]⟩ [1] [0] [] [0] [] 1 ![1, C])
    (x : (⟨2, ![N, C]⟩ : Shape).Idx → EReal) (idxb : IVec ⟨2, ![Rb, 1]⟩ w) (idx : IVec ⟨2, ![R, 1]⟩ w)
    (hidx : ∀ (r : Fin Rb) (h : off + r.val < R),
      idxb (ix2 (n0 := Rb) (n1 := 1) r ⟨0, Nat.one_pos⟩) = idx (ix2 (n0 := R) (n1 := 1) ⟨off + r.val, h⟩ ⟨0, Nat.one_pos⟩)) :
    RowBlk off (Host.gather (pickRowsDims N C Rb wfb) x idxb) (Host.gather (pickRowsDims N C R wf) x idx) :=
  fun r hr k => by
    rw [pickRows_apply hN wfb x idxb r k, pickRows_apply hN wf x idx ⟨off + r.val, hr⟩ k, hidx r hr]

/-- A vector of one entry made a 1-by-1 row — by a reshape, or by a broadcast along a new unit axis — is one and the
    same row (the case n = 1 that the 1-by-n fact leaves out). -/
theorem addUnit1_eq_bcast {α : Type} (b : (⟨1, ![1]⟩ : Shape).Idx → α)
    (hs : (⟨1, ![1]⟩ : Shape).ShapeCasts ⟨2, ![1, 1]⟩) (hb : (⟨1, ![1]⟩ : Shape).BroadcastsInDim ⟨2, ![1, 1]⟩ ![1]) :
    shapeCast ⟨2, ![1, 1]⟩ b hs = broadcastInDim ⟨2, ![1, 1]⟩ ![1] hb b := funext fun j =>
  (shapeCast_addUnit_apply ![1] b hs j).trans
    (broadcastInDim_apply ![1] hb b j (fun a => j a.succ) (fun a => by
      match a with
      | ⟨0, _⟩ =>
        have h1 : (j 1).val < 1 := (j 1).isLt
        show (j 1).val = if (1 : Nat) = 1 then 0 else (j 1).val
        rw [if_pos rfl]; omega)).symm

end Cert.Lib.IndexWrap

end
-- ==== Proof.RefStages.lean ====
/-
  The reference, stage by stage, against the kernel's host side.

  The reference computes the same network with whole-matrix host operations: for each layer the neighbour sums (wrap,
  gather, scatter-add — without the kernel's narrowing to bf16 and back, the identity at the extended reals), then
  (relu ((h + a) · w₁)) · w₂ with a relu after it in the first two layers; then, separately for the positive and
  the negative edges, the rows of the last layer at the wrapped endpoints, their entrywise product, and the scorer.
  Each of the reference's stages is the corresponding function of the kernel's host side, by unfolding both; and the
  reference's gathered rows for the positive (negative) edges are the top (bottom) 200000 rows of what the kernel
  gathers at the two endpoint vectors laid end to end, because a gathered row depends only on its own index entry.
-/
import proofs.«156789_j26877905339098_2_alg».proof.Proof.Gen.ReferenceIdeal.Read
import proofs.«156789_j26877905339098_2_alg».proof.Proof.HostSide
import proofs.«156789_j26877905339098_2_alg».proof.Proof.Layers
import proofs.«156789_j26877905339098_2_alg».proof.Proof.LibRowGather
import proofs.«156789_j26877905339098_2_alg».proof.Proof.LibIndexWrap

set_option maxRecDepth 16384

noncomputable section

namespace Cert.Bridge

open Idealize.ShloMosaic Idealize.ShloMosaic.ValueIdx Cert.Lib.DenseLayer Cert.Lib.RowGather Cert.Lib.IndexWrap

/-- The reference's three product records are the plain rows-by-columns product. -/
theorem plainR100k : Plain (M := 100000) (K := 128) (N := 128) Cert.ReferenceIdeal.dot_S100000x128_S128x128_S100000x128_1_0_0_1_n_n :=
  Plain.of_fields _ rfl rfl rfl rfl rfl rfl
theorem plainR200k : Plain (M := 200000) (K := 128) (N := 128) Cert.ReferenceIdeal.dot_S200000x128_S128x128_S200000x128_1_0_0_1_n_n :=
  Plain.of_fields _ rfl rfl rfl rfl rfl rfl
theorem plainR200k1 : Plain (M := 200000) (K := 128) (N := 1) Cert.ReferenceIdeal.dot_S200000x128_S128x1_S200000x1_1_0_0_1_n_n :=
  Plain.of_fields _ rfl rfl rfl rfl rfl rfl

section Stages
variable (x0 : FVec Ideal Cert.ReferenceIdeal.S100000x128 .f32) (x1 x2 : IVec Cert.ReferenceIdeal.S1600000 32)
  (x7 x8 x9 x10 x11 x12 : FVec Ideal Cert.ReferenceIdeal.S128x128 .f32)

/-! The kernel's neighbour sums of a layer's input are the reference's. -/
theorem agg0_ref : aggK x0 x1 x2 = Cert.ReferenceIdeal.Read.val_main_v9 (F := Ideal) x0 x1 x2 := rfl
theorem agg1_ref : aggK (Cert.ReferenceIdeal.Read.val_main_v16 (F := Ideal) x0 x1 x2 x7 x8) x1 x2
    = Cert.ReferenceIdeal.Read.val_main_v26 (F := Ideal) x0 x1 x2 x7 x8 := rfl
theorem agg2_ref : aggK (Cert.ReferenceIdeal.Read.val_main_v33 (F := Ideal) x0 x1 x2 x7 x8 x9 x10) x1 x2
    = Cert.ReferenceIdeal.Read.val_main_v43 (F := Ideal) x0 x1 x2 x7 x8 x9 x10 := rfl

/-! Each layer of the whole matrices is the reference's stage. -/
theorem layer0_ref :
    maximumf (ginMlp (M := 100000) Cert.ReferenceIdeal.dot_S100000x128_S128x128_S100000x128_1_0_0_1_n_n Cert.ReferenceIdeal.Gen.bcast_S_S100000x128 x0 (Cert.ReferenceIdeal.Read.val_main_v9 (F := Ideal) x0 x1 x2) x7 x8)
      (zeroMat 100000 128 Cert.ReferenceIdeal.Gen.bcast_S_S100000x128) = Cert.ReferenceIdeal.Read.val_main_v16 (F := Ideal) x0 x1 x2 x7 x8 := rfl
theorem layer1_ref :
    maximumf (ginMlp (M := 100000) Cert.ReferenceIdeal.dot_S100000x128_S128x128_S100000x128_1_0_0_1_n_n Cert.ReferenceIdeal.Gen.bcast_S_S100000x128 (Cert.ReferenceIdeal.Read.val_main_v16 (F := Ideal) x0 x1 x2 x7 x8)
        (Cert.ReferenceIdeal.Read.val_main_v26 (F := Ideal) x0 x1 x2 x7 x8) x9 x10)
      (zeroMat 100000 128 Cert.ReferenceIdeal.Gen.bcast_S_S100000x128) = Cert.ReferenceIdeal.Read.val_main_v33 (F := Ideal) x0 x1 x2 x7 x8 x9 x10 := rfl
theorem layer2_ref :
    ginMlp (M := 100000) Cert.ReferenceIdeal.dot_S100000x128_S128x128_S100000x128_1_0_0_1_n_n Cert.ReferenceIdeal.Gen.bcast_S_S100000x128 (Cert.ReferenceIdeal.Read.val_main_v33 (F := Ideal) x0 x1 x2 x7 x8 x9 x10)
        (Cert.ReferenceIdeal.Read.val_main_v43 (F := Ideal) x0 x1 x2 x7 x8 x9 x10) x11 x12
      = Cert.ReferenceIdeal.Read.val_main_v48 (F := Ideal) x0 x1 x2 x7 x8 x9 x10 x11 x12 := rfl

end Stages

/-! ## Picking rows at wrapped indices -/

/-- The first 200000 entries of two endpoint vectors laid end to end are the first vector's, -/
theorem catK_top (i1 i2 : IVec Cert.KernelIdeal.S200000 32) (r : Fin 200000) (q : Fin 400000) (hq : q.val = r.val) :
    catK i1 i2 (ix1 q) = i1 (ix1 r) := by
  unfold catK
  exact concatenate_pair_apply_left (0 : Fin 1) i1 i2 _ (ix1 q) rfl (ix1 r) (fun b => by
    match b with
    | ⟨0, _⟩ => exact hq.symm)

/-- and the last 200000 the second's. -/
theorem catK_bot (i1 i2 : IVec Cert.KernelIdeal.S200000 32) (r : Fin 200000) (q : Fin 400000) (hq : q.val = 200000 + r.val) :
    catK i1 i2 (ix1 q) = i2 (ix1 r) := by
  unfold catK
  exact concatenate_pair_apply_right (0 : Fin 1) i1 i2 _ (ix1 q) rfl rfl (ix1 r)
    (fun b hb => absurd (Subsingleton.elim _ _) hb) (by show r.val + 200000 = q.val; omega)

/-- The reference's column of wrapped endpoints of one half of the edges. -/
abbrev wrapR (i : IVec Cert.ReferenceIdeal.S200000 32) : IVec Cert.ReferenceIdeal.S200000x1 32 :=
  broadcastInDim Cert.ReferenceIdeal.S200000x1 ![0] Cert.ReferenceIdeal.Gen.bcast_S200000_S200000x1_0
    (select (cmpi CmpIPredicate.slt i (broadcastInDim Cert.ReferenceIdeal.S200000 ![] Cert.ReferenceIdeal.Gen.bcast_S_S200000 (constantI Cert.ReferenceIdeal.S_ 32 0#32)))
      (addi i (broadcastInDim Cert.ReferenceIdeal.S200000 ![] Cert.ReferenceIdeal.Gen.bcast_S_S200000 (constantI Cert.ReferenceIdeal.S_ 32 100000#32))) i)

/-- The kernel's column of wrapped endpoints of all the edges, the two vectors laid end to end. -/
abbrev wrapColK (i1 i2 : IVec Cert.KernelIdeal.S200000 32) : IVec Cert.KernelIdeal.S400000x1 32 :=
  broadcastInDim Cert.KernelIdeal.S400000x1 ![0] Cert.KernelIdeal.Gen.bcast_S400000_S400000x1_0
    (select (cmpi CmpIPredicate.slt (catK i1 i2) (broadcastInDim Cert.KernelIdeal.S400000 ![] Cert.KernelIdeal.Gen.bcast_S_S400000 (constantI Cert.KernelIdeal.S_ 32 0#32)))
      (addi (catK i1 i2) (broadcastInDim Cert.KernelIdeal.S400000 ![] Cert.KernelIdeal.Gen.bcast_S_S400000 (constantI Cert.KernelIdeal.S_ 32 100000#32))) (catK i1 i2))

section Pick
variable (h : FVec Ideal Cert.ReferenceIdeal.S100000x128 .f32) (i1 i2 : IVec Cert.ReferenceIdeal.S200000 32)

/-- The rows the reference picks at the first endpoint vector are the top 200000 rows the kernel picks at both. -/
theorem pick_top : RowBlk (Mb := 200000) (M := 400000) (K := 128) 0 (Host.gather Cert.ReferenceIdeal.gather_S100000x128_S200000x1_S200000x128_1_0_n_n_0_1_1128 h (wrapR i1)) (pickK h i1 i2) :=
  fun r hr k => by
    have e1 : wrapR i1 (ix2 (n0 := 200000) (n1 := 1) r ⟨0, Nat.one_pos⟩) = wrapWord 100000#32 (i1 (ix1 r)) :=
      wrapCol_apply (R := 200000) (by decide) 100000#32 i1 _ _ r
    have e2 : wrapColK i1 i2 (ix2 (n0 := 400000) (n1 := 1) ⟨0 + r.val, hr⟩ ⟨0, Nat.one_pos⟩) = wrapWord 100000#32 (i1 (ix1 r)) :=
      (wrapCol_apply (R := 400000) (by decide) 100000#32 (catK i1 i2) _ _ ⟨0 + r.val, hr⟩).trans
        (congrArg (wrapWord 100000#32) (catK_top i1 i2 r ⟨0 + r.val, hr⟩ (Nat.zero_add _)))
    unfold pickK
    refine (pickRows_apply (N := 100000) (C := 128) (R := 200000) (by decide) (Cert.ReferenceIdeal.gather_S100000x128_S200000x1_S200000x128_1_0_n_n_0_1_1128).wf h (wrapR i1) r k).trans ?_
    refine Eq.trans ?_ (pickRows_apply (N := 100000) (C := 128) (R := 400000) (by decide) (Cert.KernelIdeal.gather_S100000x128_S400000x1_S400000x128_1_0_n_n_0_1_1128).wf
      (truncf FTy.bf16 h Cert.KernelIdeal.Gen.bitsLt_bf16_f32) (wrapColK i1 i2) ⟨0 + r.val, hr⟩ k).symm
    exact congrArg (fun w => h (ix2 (clampRow 100000 (by decide) w) k)) (e1.trans e2.symm)

/-- The rows the reference picks at the second endpoint vector are the bottom 200000 rows the kernel picks at both. -/
theorem pick_bot : RowBlk (Mb := 200000) (M := 400000) (K := 128) 200000 (Host.gather Cert.ReferenceIdeal.gather_S100000x128_S200000x1_S200000x128_1_0_n_n_0_1_1128 h (wrapR i2)) (pickK h i1 i2) :=
  fun r hr k => by
    have e1 : wrapR i2 (ix2 (n0 := 200000) (n1 := 1) r ⟨0, Nat.one_pos⟩) = wrapWord 100000#32 (i2 (ix1 r)) :=
      wrapCol_apply (R := 200000) (by decide) 100000#32 i2 _ _ r
    have e2 : wrapColK i1 i2 (ix2 (n0 := 400000) (n1 := 1) ⟨200000 + r.val, hr⟩ ⟨0, Nat.one_pos⟩) = wrapWord 100000#32 (i2 (ix1 r)) :=
      (wrapCol_apply (R := 400000) (by decide) 100000#32 (catK i1 i2) _ _ ⟨200000 + r.val, hr⟩).trans
        (congrArg (wrapWord 100000#32) (catK_bot i1 i2 r ⟨200000 + r.val, hr⟩ rfl))
    unfold pickK
    refine (pickRows_apply (N := 100000) (C := 128) (R := 200000) (by decide) (Cert.ReferenceIdeal.gather_S100000x128_S200000x1_S200000x128_1_0_n_n_0_1_1128).wf h (wrapR i2) r k).trans ?_
    refine Eq.trans ?_ (pickRows_apply (N := 100000) (C := 128) (R := 400000) (by decide) (Cert.KernelIdeal.gather_S100000x128_S400000x1_S400000x128_1_0_n_n_0_1_1128).wf
      (truncf FTy.bf16 h Cert.KernelIdeal.Gen.bitsLt_bf16_f32) (wrapColK i1 i2) ⟨200000 + r.val, hr⟩ k).symm
    exact congrArg (fun w => h (ix2 (clampRow 100000 (by decide) w) k)) (e1.trans e2.symm)

end Pick

end Cert.Bridge

end
-- ==== Proof.RefScore.lean ====
/-
  The reference's edge scores as the scorer of its gathered rows, and a bias made a row two ways.

  The reference gathers the last layer's rows at the wrapped endpoints of the positive edges (sources, destinations),
  multiplies them entrywise and applies the scorer, each bias first made a 1-by-n row by a broadcast along a new unit
  axis; and the same for the negative edges. That is the scorer of whole matrices at those gathered rows, by
  unfolding the reference's stages. The kernel makes each bias a row by a reshape instead: the same row.
-/
import proofs.«156789_j26877905339098_2_alg».proof.Proof.RefStages

set_option maxRecDepth 16384

noncomputable section

namespace Cert.Bridge

open Idealize.ShloMosaic Idealize.ShloMosaic.ValueIdx Cert.Lib.DenseLayer Cert.Lib.IndexWrap

section Score
variable (x0 : FVec Ideal Cert.ReferenceIdeal.S100000x128 .f32) (x1 x2 : IVec Cert.ReferenceIdeal.S1600000 32) (x3 x4 x5 x6 : IVec Cert.ReferenceIdeal.S200000 32)
  (x7 x8 x9 x10 x11 x12 x13 : FVec Ideal Cert.ReferenceIdeal.S128x128 .f32) (x14 : FVec Ideal Cert.ReferenceIdeal.S128 .f32)
  (x15 : FVec Ideal Cert.ReferenceIdeal.S128x128 .f32) (x16 : FVec Ideal Cert.ReferenceIdeal.S128 .f32) (x17 : FVec Ideal Cert.ReferenceIdeal.S128x1 .f32)
  (x18 : FVec Ideal Cert.ReferenceIdeal.S1 .f32)

/-- The scorer at the reference's biases made rows. -/
abbrev scoreR (E : FVec Ideal ⟨2, ![200000, 128]⟩ .f32) : FVec Ideal ⟨2, ![200000, 1]⟩ .f32 :=
  edgeMlp (M := 200000) Cert.ReferenceIdeal.dot_S200000x128_S128x128_S200000x128_1_0_0_1_n_n Cert.ReferenceIdeal.dot_S200000x128_S128x1_S200000x1_1_0_0_1_n_n Cert.ReferenceIdeal.Gen.bcast_S_S200000x128 Cert.ReferenceIdeal.Gen.bcast_S1x128_S200000x128_0_1 Cert.ReferenceIdeal.Gen.bcast_S1x1_S200000x1_0_1 E x13
    (broadcastInDim Cert.ReferenceIdeal.S1x128 ![1] Cert.ReferenceIdeal.Gen.bcast_S128_S1x128_1 x14) x15
    (broadcastInDim Cert.ReferenceIdeal.S1x128 ![1] Cert.ReferenceIdeal.Gen.bcast_S128_S1x128_1 x16) x17
    (broadcastInDim Cert.ReferenceIdeal.S1x1 ![1] Cert.ReferenceIdeal.Gen.bcast_S1_S1x1_1 x18)

/-- The reference's scores of the positive edges. -/
theorem score_pos_ref :
    scoreR x13 x14 x15 x16 x17 x18 (mulf (Host.gather Cert.ReferenceIdeal.gather_S100000x128_S200000x1_S200000x128_1_0_n_n_0_1_1128 (Cert.ReferenceIdeal.Read.val_main_v48 (F := Ideal) x0 x1 x2 x7 x8 x9 x10 x11 x12) (wrapR x3)) (Host.gather Cert.ReferenceIdeal.gather_S100000x128_S200000x1_S200000x128_1_0_n_n_0_1_1128 (Cert.ReferenceIdeal.Read.val_main_v48 (F := Ideal) x0 x1 x2 x7 x8 x9 x10 x11 x12) (wrapR x4)))
      = Cert.ReferenceIdeal.Read.val_main_v79 (F := Ideal) x0 x1 x2 x3 x4 x7 x8 x9 x10 x11 x12 x13 x14 x15 x16 x17 x18 := rfl

/-- The reference's scores of the negative edges. -/
theorem score_neg_ref :
    scoreR x13 x14 x15 x16 x17 x18 (mulf (Host.gather Cert.ReferenceIdeal.gather_S100000x128_S200000x1_S200000x128_1_0_n_n_0_1_1128 (Cert.ReferenceIdeal.Read.val_main_v48 (F := Ideal) x0 x1 x2 x7 x8 x9 x10 x11 x12) (wrapR x5)) (Host.gather Cert.ReferenceIdeal.gather_S100000x128_S200000x1_S200000x128_1_0_n_n_0_1_1128 (Cert.ReferenceIdeal.Read.val_main_v48 (F := Ideal) x0 x1 x2 x7 x8 x9 x10 x11 x12) (wrapR x6)))
      = Cert.ReferenceIdeal.Read.val_main_v110 (F := Ideal) x0 x1 x2 x5 x6 x7 x8 x9 x10 x11 x12 x13 x14 x15 x16 x17 x18 := rfl

/-- A bias reshaped to one row is the reference's broadcast of it along a new unit axis. -/
theorem bias_row (b : FVec Ideal Cert.ReferenceIdeal.S128 .f32) :
    shapeCast Cert.KernelIdeal.S1x128 b Cert.KernelIdeal.Gen.shapeCasts_S128_S1x128 = broadcastInDim Cert.ReferenceIdeal.S1x128 ![1] Cert.ReferenceIdeal.Gen.bcast_S128_S1x128_1 b :=
  addUnit_eq_bcast (n := 128) (by decide) b _ _

theorem bias_one (b : FVec Ideal Cert.ReferenceIdeal.S1 .f32) :
    shapeCast Cert.KernelIdeal.S1x1 b Cert.KernelIdeal.Gen.shapeCasts_S1_S1x1 = broadcastInDim Cert.ReferenceIdeal.S1x1 ![1] Cert.ReferenceIdeal.Gen.bcast_S1_S1x1_1 b :=
  addUnit1_eq_bcast b _ _

end Score

end Cert.Bridge

end
-- ==== Proof.KernelValue.lean ====
/-
  The idealized kernel's two results are the reference's two results of the same launch contents.

  Region by region: the first region's output is the reference's first layer of the launch contents (its neighbour
  sums and its layer are the reference's stages), the second region's is the second layer of that, the third's the
  last layer. The rows the kernel gathers at the positive and negative edges' endpoints laid end to end have the
  reference's positive rows on top and its negative rows below, so the fourth region's output is the reference's
  positive scores stacked on its negative scores (the biases, reshaped to rows by the kernel and broadcast to rows
  by the reference, are the same rows); and the last stretch of host operations cuts that array back into the two halves.
-/
import proofs.«156789_j26877905339098_2_alg».proof.Proof.BoundaryValues
import proofs.«156789_j26877905339098_2_alg».proof.Proof.RefScore

set_option maxRecDepth 16384

noncomputable section

namespace Cert.Bridge

open Idealize.ShloMosaic Idealize.ShloMosaic.TcCoe Idealize.ShloMosaic.ValueIdx Idealize.SL.Sem Idealize.ShloMosaic.StableHlo
open Cert.Lib.DenseLayer Cert.KernelIdeal Cert.KernelIdeal.Gen

variable (m : (ℓ : Loc nD τ sig) → Buf (Elt Ideal) ℓ) (ρ : Dev nD → PrngReg)

/-- The first region leaves the reference's first layer. -/
theorem out0_ref (c : Dev nD) : out0 m ρ c = Cert.ReferenceIdeal.Read.val_main_v16 (F := Ideal) (m ((c : Thread nD τ).loc main_arg0)) (m ((c : Thread nD τ).loc main_arg1)) (m ((c : Thread nD τ).loc main_arg2)) (m ((c : Thread nD τ).loc main_arg7)) (m ((c : Thread nD τ).loc main_arg8)) :=
  (out0_eq m ρ plainR100k Cert.ReferenceIdeal.Gen.bcast_S_S100000x128 c).trans (by rw [agg0_ref]; exact layer0_ref _ _ _ _ _)

/-- The second region leaves the reference's second layer. -/
theorem out1_ref (c : Dev nD) : out1 m ρ c = Cert.ReferenceIdeal.Read.val_main_v33 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) :=
  (out1_eq m ρ plainR100k Cert.ReferenceIdeal.Gen.bcast_S_S100000x128 c).trans (by rw [out0_ref, agg1_ref]; exact layer1_ref _ _ _ _ _ _ _)

/-- The third region leaves the reference's last layer. -/
theorem out2_ref (c : Dev nD) : out2 m ρ c = Cert.ReferenceIdeal.Read.val_main_v48 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (out2_eq m ρ plainR100k Cert.ReferenceIdeal.Gen.bcast_S_S100000x128 c).trans (by rw [out1_ref, agg2_ref]; exact layer2_ref _ _ _ _ _ _ _ _ _)

set_option maxHeartbeats 2000000 in
/-- The fourth region leaves the reference's positive scores stacked on its negative scores. -/
theorem out3_ref (c : Dev nD) :
    out3 m ρ c = stack2 (Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (Cert.ReferenceIdeal.Read.val_main_v110 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) := by
  have h3 := out2_ref m ρ c
  have hAp : RowBlk (Mb := 200000) (M := 400000) (K := 128) 0 (Host.gather Cert.ReferenceIdeal.gather_S100000x128_S200000x1_S200000x128_1_0_n_n_0_1_1128 (Cert.ReferenceIdeal.Read.val_main_v48 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (wrapR (m ((c : Thread nD τ).loc main_arg3))))
      (V7 m ρ c main_v48) := by
    show RowBlk (Mb := 200000) (M := 400000) (K := 128) 0 _ (W7 m ρ c (Proc.devRef .tc main_v48))
    rw [W7_v48, h3]; exact pick_top _ _ _
  have hAn : RowBlk (Mb := 200000) (M := 400000) (K := 128) 200000 (Host.gather Cert.ReferenceIdeal.gather_S100000x128_S200000x1_S200000x128_1_0_n_n_0_1_1128 (Cert.ReferenceIdeal.Read.val_main_v48 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (wrapR (m ((c : Thread nD τ).loc main_arg5))))
      (V7 m ρ c main_v48) := by
    show RowBlk (Mb := 200000) (M := 400000) (K := 128) 200000 _ (W7 m ρ c (Proc.devRef .tc main_v48))
    rw [W7_v48, h3]; exact pick_bot _ _ _
  have hBp : RowBlk (Mb := 200000) (M := 400000) (K := 128) 0 (Host.gather Cert.ReferenceIdeal.gather_S100000x128_S200000x1_S200000x128_1_0_n_n_0_1_1128 (Cert.ReferenceIdeal.Read.val_main_v48 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (wrapR (m ((c : Thread nD τ).loc main_arg4))))
      (V7 m ρ c main_v55) := by
    show RowBlk (Mb := 200000) (M := 400000) (K := 128) 0 _ (W7 m ρ c (Proc.devRef .tc main_v55))
    rw [W7_v55, h3]; exact pick_top _ _ _
  have hBn : RowBlk (Mb := 200000) (M := 400000) (K := 128) 200000 (Host.gather Cert.ReferenceIdeal.gather_S100000x128_S200000x1_S200000x128_1_0_n_n_0_1_1128 (Cert.ReferenceIdeal.Read.val_main_v48 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (wrapR (m ((c : Thread nD τ).loc main_arg6))))
      (V7 m ρ c main_v55) := by
    show RowBlk (Mb := 200000) (M := 400000) (K := 128) 200000 _ (W7 m ρ c (Proc.devRef .tc main_v55))
    rw [W7_v55, h3]; exact pick_bot _ _ _
  refine (edge_array (V7 m ρ) plainR200k plainR200k1 Cert.ReferenceIdeal.Gen.bcast_S_S200000x128 Cert.ReferenceIdeal.Gen.bcast_S1x128_S200000x128_0_1 Cert.ReferenceIdeal.Gen.bcast_S1x1_S200000x1_0_1 c hAp hAn hBp hBn).trans ?_
  show stack2
      (edgeMlp (M := 200000) Cert.ReferenceIdeal.dot_S200000x128_S128x128_S200000x128_1_0_0_1_n_n Cert.ReferenceIdeal.dot_S200000x128_S128x1_S200000x1_1_0_0_1_n_n Cert.ReferenceIdeal.Gen.bcast_S_S200000x128 Cert.ReferenceIdeal.Gen.bcast_S1x128_S200000x128_0_1 Cert.ReferenceIdeal.Gen.bcast_S1x1_S200000x1_0_1 (mulf _ _)
        (W7 m ρ c (Proc.devRef .tc main_arg13)) (W7 m ρ c (Proc.devRef .tc main_v56)) (W7 m ρ c (Proc.devRef .tc main_arg15))
        (W7 m ρ c (Proc.devRef .tc main_v57)) (W7 m ρ c (Proc.devRef .tc main_arg17)) (W7 m ρ c (Proc.devRef .tc main_v58)))
      (edgeMlp (M := 200000) Cert.ReferenceIdeal.dot_S200000x128_S128x128_S200000x128_1_0_0_1_n_n Cert.ReferenceIdeal.dot_S200000x128_S128x1_S200000x1_1_0_0_1_n_n Cert.ReferenceIdeal.Gen.bcast_S_S200000x128 Cert.ReferenceIdeal.Gen.bcast_S1x128_S200000x128_0_1 Cert.ReferenceIdeal.Gen.bcast_S1x1_S200000x1_0_1 (mulf _ _)
        (W7 m ρ c (Proc.devRef .tc main_arg13)) (W7 m ρ c (Proc.devRef .tc main_v56)) (W7 m ρ c (Proc.devRef .tc main_arg15))
        (W7 m ρ c (Proc.devRef .tc main_v57)) (W7 m ρ c (Proc.devRef .tc main_arg17)) (W7 m ρ c (Proc.devRef .tc main_v58))) = _
  rw [keep7 m ρ c main_arg13 (by decide), W7_v56, keep7 m ρ c main_arg15 (by decide), W7_v57,
    keep7 m ρ c main_arg17 (by decide), W7_v58, bias_row, bias_row, bias_one]
  exact congrArg₂ stack2 (score_pos_ref _ _ _ _ _ _ _ _ _ _ _ _ _ _ _ _ _) (score_neg_ref _ _ _ _ _ _ _ _ _ _ _ _ _ _ _ _ _)

set_option maxHeartbeats 2000000 in
/-- The first result: the top half of the scores, the reference's positive scores. -/
theorem res60 (c : Dev nD) :
    W9 m ρ c (Proc.devRef .tc main_v60) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps4 (W8 m ρ c) (Proc.devRef .tc main_v60) = _
  after_results
  rw [show W8 m ρ c (Proc.devRef .tc main_v59) = out3 m ρ c from W8_arr m ρ c 8, out3_ref]
  funext j
  have hj0 : (j 0).val < 200000 := (j 0).isLt
  have hj1 : (j 1).val < 1 := (j 1).isLt
  rw [extractStridedSlice_apply ![0, 0] _ _ j (ix2 (n0 := 400000) (n1 := 1) ⟨(j 0).val, by omega⟩ ⟨0, Nat.one_pos⟩) (fun a => by
    match a with
    | ⟨0, _⟩ => exact (Nat.zero_add _).symm
    | ⟨1, _⟩ => show 0 = 0 + (j 1).val; omega)]
  exact stack2_top _ _ _ j rfl

set_option maxHeartbeats 2000000 in
/-- The second result: the bottom half of the scores, the reference's negative scores. -/
theorem res61 (c : Dev nD) :
    W9 m ρ c (Proc.devRef .tc main_v61) = Cert.ReferenceIdeal.Read.val_main_v110 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after hostOps4 (W8 m ρ c) (Proc.devRef .tc main_v61) = _
  after_results
  rw [show W8 m ρ c (Proc.devRef .tc main_v59) = out3 m ρ c from W8_arr m ρ c 8, out3_ref]
  funext j
  have hj0 : (j 0).val < 200000 := (j 0).isLt
  have hj1 : (j 1).val < 1 := (j 1).isLt
  rw [extractStridedSlice_apply ![200000, 0] _ _ j (ix2 (n0 := 400000) (n1 := 1) ⟨200000 + (j 0).val, by omega⟩ ⟨0, Nat.one_pos⟩) (fun a => by
    match a with
    | ⟨0, _⟩ => rfl
    | ⟨1, _⟩ => show 0 = 0 + (j 1).val; omega)]
  exact stack2_bot _ _ _ j rfl

end Cert.Bridge

end
-- ==== Proof.lean ====
/-
  A three-layer graph-isomorphism network on 100000 nodes and 1600000 edges followed by a three-layer scorer of
  200000 positive and 200000 negative edges, computed by four tiled kernels among host gathers and scatter-adds,
  against the same network written with whole-matrix host operations.

  At the extended reals the two programs are one function of the arguments. A layer is relu? ((relu ((h + a) · w₁)) · w₂)
  with a the neighbour sums of h; the kernel computes it 5000 rows at a time, narrowing every matrix-unit operand to
  bf16 (the identity at the extended reals) and accumulating into zero, and every operation of the layer acts on each
  row by itself, so the twenty blocks are the blocks of the whole-matrix layer and tile it. The neighbour sums are the
  same gather and scatter-add on both sides. The scorer (relu (relu (e · p₁ + b₁) · p₂ + b₂)) · p₃ + b₃ likewise acts row
  by row; the kernel scores the positive and the negative edges in one array of 400000 rows, 8000 at a time, and cuts
  the result in two, while the reference scores the two halves separately: a gathered row depends only on its own index,
  so the top and bottom halves of the kernel's gathered rows are the reference's, and 200000 is a whole number of blocks.
  No law used here (sums of the same products, entrywise operations) asks any entry to be finite, so the precondition is
  never opened. The frames of the two kernel programs are the generated ones; the reference's is its generated run with
  the results dropped; the idealization rewrote no operation, so there is nothing to preserve.
-/
import proofs.«156789_j26877905339098_2_alg».proof.Defs
import proofs.«156789_j26877905339098_2_alg».proof.Proof.Gen.Kernel
import proofs.«156789_j26877905339098_2_alg».proof.Proof.Gen.Kernel.Skeleton
import proofs.«156789_j26877905339098_2_alg».proof.Proof.Gen.Kernel.Launch
import proofs.«156789_j26877905339098_2_alg».proof.Proof.Gen.Kernel.Points
import proofs.«156789_j26877905339098_2_alg».proof.Proof.Gen.Kernel.Frame
import proofs.«156789_j26877905339098_2_alg».proof.Proof.Gen.KernelIdeal
import proofs.«156789_j26877905339098_2_alg».proof.Proof.Gen.KernelIdeal.Skeleton
import proofs.«156789_j26877905339098_2_alg».proof.Proof.Gen.KernelIdeal.Launch
import proofs.«156789_j26877905339098_2_alg».proof.Proof.Gen.KernelIdeal.Points
import proofs.«156789_j26877905339098_2_alg».proof.Proof.Gen.KernelIdeal.Frame
import proofs.«156789_j26877905339098_2_alg».proof.Proof.Gen.ReferenceIdeal
import proofs.«156789_j26877905339098_2_alg».proof.Proof.Gen.ReferenceIdeal.Run
import proofs.«156789_j26877905339098_2_alg».proof.Proof.Gen.ReferenceIdeal.Read
import proofs.«156789_j26877905339098_2_alg».proof.Proof.Gen.Pre_finite_inputs
import proofs.«156789_j26877905339098_2_alg».proof.Proof.KernelRun
import proofs.«156789_j26877905339098_2_alg».proof.Proof.KernelValue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- From memories agreeing on the nineteen arguments both programs end with the positive edges' scores and the negative
    edges' scores of the network of those arguments, equal entry by entry as extended reals, and unchanged arguments. -/
theorem algebraic : Cert.algebraic_KernelIdeal_ReferenceIdeal := by
  intro m ρ m' ρ' _ hagree
  refine ⟨fun c => Cert.ReferenceIdeal.Read.val_main_v79 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.ReferenceIdeal.Read.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.Bridge.res60 m ρ c), (h c).2.1.trans (Cert.Bridge.res61 m ρ c), (h c).2.2⟩)
      (Cert.Bridge.run_results (F := Ideal) m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18⟩ := hagree c
    refine ⟨(h c).1.trans ?_, (h c).2.1.trans ?_, (h c).2.2⟩
    · rw [Cert.ReferenceIdeal.Read.val_main_v79_eq, e0, e1, e2, e3, e4, e7, e8, e9, e10, e11, e12, e13, e14, e15, e16, e17, e18]
    · rw [Cert.ReferenceIdeal.Read.val_main_v110_eq, e0, e1, e2, e5, e6, e7, e8, e9, e10, e11, e12, e13, e14, e15, e16, e17, e18]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
